-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x16384 : Shape := ⟨2, ![2048, 16384]⟩
abbrev S16384 : Shape := ⟨1, ![16384]⟩
abbrev S8192x2048 : Shape := ⟨2, ![8192, 2048]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S16384 : S_.BroadcastsInDim S16384 (![] : Fin 0 → Fin S16384.rank)
  reducesTo_S16384_S_d0 : S16384.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2x2048x2048 .f32) (main_arg1 : FVec F S2048x16384 .f32) (main_arg2 : FVec F S16384 .f32) (main_arg3 : FVec F S8192x2048 .f32) (main_arg4 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S2x2048x2048 : Shape := ⟨3, ![2, 2048, 2048]⟩
abbrev S2048x16384 : Shape := ⟨2, ![2048, 16384]⟩
abbrev S16384 : Shape := ⟨1, ![16384]⟩
abbrev S8192x2048 : Shape := ⟨2, ![8192, 2048]⟩
abbrev S2048 : Shape := ⟨1, ![2048]⟩
abbrev S4096x2048 : Shape := ⟨2, ![4096, 2048]⟩
abbrev S1x16384 : Shape := ⟨2, ![1, 16384]⟩
abbrev S1x2048 : Shape := ⟨2, ![1, 2048]⟩
abbrev S1024x2048 : Shape := ⟨2, ![1024, 2048]⟩
abbrev S2048x256 : Shape := ⟨2, ![2048, 256]⟩
abbrev S1x256 : Shape := ⟨2, ![1, 256]⟩
abbrev S256x2048 : Shape := ⟨2, ![256, 2048]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S2048x16384, .f32⟩
  | .hbm, ⟨2, _⟩ => ⟨S16384, .f32⟩
  | .hbm, ⟨3, _⟩ => ⟨S8192x2048, .f32⟩
  | .hbm, ⟨4, _⟩ => ⟨S2048, .f32⟩
  | .hbm, ⟨5, _⟩ => ⟨S4096x2048, .f32⟩
  | .hbm, ⟨6, _⟩ => ⟨S4096x2048, .bf16⟩
  | .hbm, ⟨7, _⟩ => ⟨S2048x16384, .bf16⟩
  | .hbm, ⟨8, _⟩ => ⟨S8192x2048, .bf16⟩
  | .hbm, ⟨9, _⟩ => ⟨S1x16384, .f32⟩
  | .hbm, ⟨10, _⟩ => ⟨S1x2048, .f32⟩
  | .hbm, ⟨11, _⟩ => ⟨S4096x2048, .f32⟩
  | .hbm, ⟨12, _⟩ => ⟨S2x2048x2048, .f32⟩
  | .local _ .vmem, ⟨0, _⟩ => ⟨S1024x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_13 : BitVec 32 := 0#32
  let v25 : BitVec 1 := Scalar.cmpi .ne v24 c0_i32_13
  v25

def k0_cond2 (i : grid0.Coords) : BitVec 1 :=
  let arg1 : BitVec 32 := BitVec.ofNat 32 (i 1).val
  let c0_i32_14 : BitVec 32 := 0#32
  let v26 : BitVec 1 := Scalar.cmpi .sgt arg1 c0_i32_14
  let v27 : BitVec 32 := Scalar.extui v26
  let c0_i32_15 : BitVec 32 := 0#32
  let v28 : BitVec 1 := Scalar.cmpi .ne v27 c0_i32_15
  v28

def k0_cond3 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x2048x2048_S4096x2048 : S2x2048x2048.ShapeCasts S4096x2048
  bitsLt_bf16_f32 : FTy.bits .bf16 < FTy.bits .f32
  shapeCasts_S16384_S1x16384 : S16384.ShapeCasts S1x16384
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S4096x2048_S2x2048x2048 : S4096x2048.ShapeCasts S2x2048x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x16384.size a
  hwx0_1 : ∀ i : grid0.Coords, EltTy.bits .bf16 = 32 ∨ (Rect.block (s := S2048x16384) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x16384.size a
  hwx0_2 : ∀ i : grid0.Coords, EltTy.bits .bf16 = 32 ∨ (Rect.block (s := S2048x16384) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x16384.size a
  hwx0_3 : ∀ i : grid0.Coords, EltTy.bits .f32 = 32 ∨ (Rect.block (s := S1x16384) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x16384.size a
  hwx0_4 : ∀ i : grid0.Coords, EltTy.bits .f32 = 32 ∨ (Rect.block (s := S1x16384) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .bf16 = 32 ∨ (Rect.block (s := S8192x2048) S256x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S4096x2048.size a
  hwx0_7 : ∀ i : grid0.Coords, EltTy.bits .f32 = 32 ∨ (Rect.block (s := S4096x2048) S1024x2048.size (cc0_transform_7 i) (hinb0_7 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v1) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) && !(k0_cond3 i == 1#1) | ⟨_ + 8, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S2048x16384 : Shape := ⟨2, ![2048, 16384]⟩
abbrev S16384 : Shape := ⟨1, ![16384]⟩
abbrev S8192x2048 : Shape := ⟨2, ![8192, 2048]⟩
abbrev S2048 : Shape := ⟨1, ![2048]⟩
abbrev S2x2048x16384 : Shape := ⟨3, ![2, 2048, 16384]⟩
abbrev S1x1x16384 : Shape := ⟨3, ![1, 1, 16384]⟩
abbrev S2x2048x8192 : Shape := ⟨3, ![2, 2048, 8192]⟩
abbrev S_ : Shape := ⟨0, ![]⟩
abbrev S1x1x2048 : Shape := ⟨3, ![1, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x16384, .f32⟩
  | .hbm, ⟨2, _⟩ => ⟨S16384, .f32⟩
  | .hbm, ⟨3, _⟩ => ⟨S8192x2048, .f32⟩
  | .hbm, ⟨4, _⟩ => ⟨S2048, .f32⟩
  | .hbm, ⟨5, _⟩ => ⟨S2x2048x16384, .f32⟩
  | .hbm, ⟨6, _⟩ => ⟨S1x1x16384, .f32⟩
  | .hbm, ⟨7, _⟩ => ⟨S2x2048x16384, .f32⟩
  | .hbm, ⟨8, _⟩ => ⟨S2x2048x16384, .f32⟩
  | .hbm, ⟨9, _⟩ => ⟨S2x2048x8192, .f32⟩
  | .hbm, ⟨10, _⟩ => ⟨S2x2048x8192, .f32⟩
  | .hbm, ⟨11, _⟩ => ⟨S2x2048x8192, .f32⟩
  | .hbm, ⟨12, _⟩ => ⟨S2x2048x8192, .f32⟩
  | .hbm, ⟨13, _⟩ => ⟨S_, .f32⟩
  | .hbm, ⟨14, _⟩ => ⟨S2x2048x8192, .f32⟩
  | .hbm, ⟨15, _⟩ => ⟨S2x2048x8192, .f32⟩
  | .hbm, ⟨16, _⟩ => ⟨S_, .f32⟩
  | .hbm, ⟨17, _⟩ => ⟨S2x2048x8192, .f32⟩
  | .hbm, ⟨18, _⟩ => ⟨S2x2048x8192, .f32⟩
  | .hbm, ⟨19, _⟩ => ⟨S2x2048x8192, .f32⟩
  | .hbm, ⟨20, _⟩ => ⟨S2x2048x8192, .f32⟩
  | .hbm, ⟨21, _⟩ => ⟨S2x2048x2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  slices_S2x2048x16384_S2x2048x8192_0_0_0 : S2x2048x16384.Slices ![0, 0, 0] S2x2048x8192
  slices_S2x2048x16384_S2x2048x8192_0_0_8192 : S2x2048x16384.Slices ![0, 0, 8192] S2x2048x8192
  bcast_S_S2x2048x8192 : S_.BroadcastsInDim S2x2048x8192 (![] : Fin 0 → Fin S2x2048x8192.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  dot_S2x2048x2048_S2048x16384_S2x2048x16384_2_0_01_1_n_n_wf : DotDims.WF S2x2048x2048 S2048x16384 S2x2048x16384 [2] [0] [0, 1] [1] [] []
  dot_S2x2048x8192_S8192x2048_S2x2048x2048_2_0_01_1_n_n_wf : DotDims.WF S2x2048x8192 S8192x2048 S2x2048x2048 [2] [0] [0, 1] [1] [] []

variable [Facts₀]

def dot_S2x2048x2048_S2048x16384_S2x2048x16384_2_0_01_1_n_n : DotDims S2x2048x2048 S2048x16384 S2x2048x16384 where
  lhsContracting := [2]
  rhsContracting := [0]
  lhsNonContracting := [0, 1]
  rhsNonContracting := [1]
  lhsBatch := []
  rhsBatch := []
  wf := dot_S2x2048x2048_S2048x16384_S2x2048x16384_2_0_01_1_n_n_wf
def dot_S2x2048x8192_S8192x2048_S2x2048x2048_2_0_01_1_n_n : DotDims S2x2048x8192 S8192x2048 S2x2048x2048 where
  lhsContracting := [2]
  rhsContracting := [0]
  lhsNonContracting := [0, 1]
  rhsNonContracting := [1]
  lhsBatch := []
  rhsBatch := []
  wf := dot_S2x2048x8192_S8192x2048_S2x2048x2048_2_0_01_1_n_n_wf

class Facts : Prop extends Facts₀ where

variable [Facts]
-- ==== Proof.K.Entry.lean ====
/-
  The fused SwiGLU kernel's program around its one region: what every buffer of a core holds when the
  region is entered (the six host lines before it applied to the launch memory), that @main is those
  lines, the region, and one reshape after it, and the block of each window's array at a grid point.
-/
import proofs.«144755_j29515015258325_2_alg».proof.Proof.Gen.Kernel.Launch
import proofs.«144755_j29515015258325_2_alg».proof.Proof.Gen.Kernel.Skeleton
import proofs.«144755_j29515015258325_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch memory after the host lines
    that come before the region (two reshapes of the biases, one of the activations, three casts). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, and the reshape after it: it reduces to the
    region continued by that reshape, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.K.Shared.lean ====
/-
  What the three runs of the fused SwiGLU body and the body obligation share: the three branch
  conditions of the body in closed form over the grid (they read the hidden-block coordinate only: the
  first holds at block 0, the second at every later block, the third at block 31), the output window
  live at every point, each window's current staging memref at a point, and every input window's
  staging buffer holding that window's block at every point, whether the point fetched it or not.
-/
import proofs.«144755_j29515015258325_2_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The first branch (store the block's contribution) is taken exactly at hidden block 0. -/
theorem hcond1 : ∀ t : Fin cfg0.N, k0_cond1 (grid0.coords t) = 1#1 ↔ t.val % 32 = 0 :=
  (by decide +kernel : ∀ t : Fin grid0.N, k0_cond1 (grid0.coords t) = 1#1 ↔ t.val % 32 = 0)

/-- The second branch (add the block's contribution) is taken exactly at the hidden blocks after 0. -/
theorem hcond2 : ∀ t : Fin cfg0.N, k0_cond2 (grid0.coords t) = 1#1 ↔ t.val % 32 ≠ 0 :=
  (by decide +kernel : ∀ t : Fin grid0.N, k0_cond2 (grid0.coords t) = 1#1 ↔ t.val % 32 ≠ 0)

/-- The third branch (add the bias row) is taken exactly at the last hidden block, 31. -/
theorem hcond3 : ∀ t : Fin cfg0.N, k0_cond3 (grid0.coords t) = 1#1 ↔ t.val % 32 = 31 :=
  (by decide +kernel : ∀ t : Fin grid0.N, k0_cond3 (grid0.coords t) = 1#1 ↔ t.val % 32 = 31)

/-- The output window is live at every grid coordinate: block 0 takes the first branch and every
    other block the second, so some store into it happens at every point. -/
theorem live7 : ∀ i : grid0.Coords, cfg0.idle 7 i = false := by
  intro i
  show (!(k0_cond1 i == 1#1) && !(k0_cond2 i == 1#1) && !(k0_cond3 i == 1#1)) = false
  unfold k0_cond1 k0_cond2 k0_cond3
  generalize i 1 = j
  revert j
  decide +kernel

/-! ## The staging memrefs at a point -/

/-- Window 0's current staging memref at point `t`, and that it is a whole buffer. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
/-- Window 1's current staging memref at point `t`, and that it is a whole buffer. -/
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
/-- Window 2's current staging memref at point `t`, and that it is a whole buffer. -/
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
/-- Window 3's current staging memref at point `t`, and that it is a whole buffer. -/
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
/-- Window 4's current staging memref at point `t`, and that it is a whole buffer. -/
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
/-- Window 5's current staging memref at point `t`, and that it is a whole buffer. -/
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
/-- Window 6's current staging memref at point `t`, and that it is a whole buffer. -/
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
/-- Window 7's current staging memref at point `t`, and that it is a whole buffer. -/
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)

/-! ## The inputs' staging buffers hold their blocks -/

/-- Input window 0's current staging buffer holds its block at every point, fetched there or not
    (unfetched, the block index has not moved), for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not
    (unfetched, the block index has not moved), for any proof data over the region-entry arrays whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not
    (unfetched, the block index has not moved), for any proof data over the region-entry arrays whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not
    (unfetched, the block index has not moved), for any proof data over the region-entry arrays whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not
    (unfetched, the block index has not moved), for any proof data over the region-entry arrays whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not
    (unfetched, the block index has not moved), for any proof data over the region-entry arrays whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not
    (unfetched, the block index has not moved), for any proof data over the region-entry arrays whose
    body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.RunA.lean ====
/-
  The fused SwiGLU body at a point of hidden block 0 (first branch taken, the other two not), on any
  whole staging memrefs: with the seven input buffers at their contents and the output buffer at
  anything, the body runs and hands back the inputs as they were and the output buffer holding the
  block's contribution, the payload of its one whole-buffer store.
-/
import proofs.«144755_j29515015258325_2_alg».proof.Proof.K.Shared
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer rectangle, as the printed rectangles spell them. -/
theorem hz : (![0, 0] : Fin 2 → Nat) = fun _ => 0 := funext fun a => by fin_cases a <;> rfl

/-! ## Whole-buffer loads and stores, over any shape -/

section Whole

variable {Val : EltTy → Type} [∀ e, Nonempty (Val e)] {sg : RefSig} {κ : Kind} {sp : Space} {S : Shape} {e : EltTy}

/-- One store through the whole-buffer rectangle leaves its payload, whatever the buffer held. -/
theorem read_writes_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A store through the whole-buffer rectangle, last, leaves its payload, whatever the earlier stores were. -/
theorem read_writes_cons_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-buffer rectangle of a whole memref holding `X` reads `X`. -/
theorem readAt_whole (mr : Memref sg κ sp S e) (hm : mr.IsWhole) {off : Fin S.rank → Nat} (h : off = fun _ => 0)
    (inb : ∀ a, off a + S.size a ≤ S.size a) (X : S.Idx → Val e) :
    mr.view.readAt Val (Rect.unit off S.size inb).toLoadRect (hm.unread X) = X := by
  rw [View.readAt_eq_ld, hm.read_unread, View.ld_unit_zero h]

end Whole

set_option maxHeartbeats 1000000 in
/-- CASE A (hidden block 0). The output buffer is read once (the value is dropped) and then stored
    whole with the contribution of the block, computed from the six operand blocks: so whatever it
    held, it ends holding that contribution. -/
theorem runA (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S256x2048 .bf16) (harg7 : arg7.IsWhole) (arg8 : Memref sig .tc .vmem S1x2048 .f32) (harg8 : arg8.IsWhole) (arg9 : Memref sig .tc .vmem S1024x2048 .f32) (harg9 : arg9.IsWhole)
    (hc1 : k0_cond1 i = 1#1) (hc2 : ¬k0_cond2 i = 1#1) (hc3 : ¬k0_cond3 i = 1#1)
    (x0 : Vec F S1024x2048 .bf16) (x1 : Vec F S2048x256 .bf16) (x2 : Vec F S2048x256 .bf16) (x3 : Vec F S1x256 .f32) (x4 : Vec F S1x256 .f32) (x5 : Vec F S256x2048 .bf16) (x6 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1 x3 x2 x4 x5)) -∗ K ⟨⟩))
      ⊢ wp frame (wpE (defs₀ (F := F)) Variants.none c none) E (cc0__swiglu_kernel i arg2 harg2 arg3 harg3 arg4 harg4 arg5 harg5 arg6 harg6 arg7 harg7 arg8 harg8 arg9 harg9) K := by
  simp only [cc0__swiglu_kernel_eq_skeleton]; unfold cc0__swiglu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  refine (read_writes_whole _ _ hz _ _).trans ?_
  rw [readAt_whole arg2 harg2 hz, readAt_whole arg3 harg3 hz, readAt_whole arg4 harg4 hz, readAt_whole arg5 harg5 hz,
    readAt_whole arg6 harg6 hz, readAt_whole arg7 harg7 hz]

end Cert.Kernel.Hand

end
-- ==== Proof.K.RunB.lean ====
/-
  The fused SwiGLU body at a point of a hidden block strictly between the first and the last (second
  branch taken, the other two not), on any whole staging memrefs: with the seven input buffers at their
  contents and the output buffer at the running sum, the body runs and hands back the inputs as they
  were and the output buffer holding the running sum plus the block's contribution.
-/
import proofs.«144755_j29515015258325_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE B (hidden blocks 1 to 30). The output buffer, holding the running sum `xo`, is read (twice:
    the second value is dropped) and stored whole with `xo` plus the contribution of the block. -/
theorem runB (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S256x2048 .bf16) (harg7 : arg7.IsWhole) (arg8 : Memref sig .tc .vmem S1x2048 .f32) (harg8 : arg8.IsWhole) (arg9 : Memref sig .tc .vmem S1024x2048 .f32) (harg9 : arg9.IsWhole)
    (hc1 : ¬k0_cond1 i = 1#1) (hc2 : k0_cond2 i = 1#1) (hc3 : ¬k0_cond3 i = 1#1)
    (x0 : Vec F S1024x2048 .bf16) (x1 : Vec F S2048x256 .bf16) (x2 : Vec F S2048x256 .bf16) (x3 : Vec F S1x256 .f32) (x4 : Vec F S1x256 .f32) (x5 : Vec F S256x2048 .bf16) (x6 : Vec F S1x2048 .f32) (xo : Vec F S1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 x0 x1 x3 x2 x4 x5 xo)) -∗ K ⟨⟩))
      ⊢ wp frame (wpE (defs₀ (F := F)) Variants.none c none) E (cc0__swiglu_kernel i arg2 harg2 arg3 harg3 arg4 harg4 arg5 harg5 arg6 harg6 arg7 harg7 arg8 harg8 arg9 harg9) K := by
  simp only [cc0__swiglu_kernel_eq_skeleton]; unfold cc0__swiglu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  refine (read_writes_whole _ _ hz _ _).trans ?_
  rw [readAt_whole arg2 harg2 hz, readAt_whole arg3 harg3 hz, readAt_whole arg4 harg4 hz, readAt_whole arg5 harg5 hz,
    readAt_whole arg6 harg6 hz, readAt_whole arg7 harg7 hz, readAt_whole arg9 harg9 hz]

end Cert.Kernel.Hand

end
-- ==== Proof.K.RunC.lean ====
/-
  The fused SwiGLU body at a point of the last hidden block (second and third branches taken, the first
  not), on any whole staging memrefs: with the seven input buffers at their contents and the output
  buffer at the running sum, the body runs and hands back the inputs as they were and the output buffer
  holding the running sum plus the block's contribution plus the bias row.
-/
import proofs.«144755_j29515015258325_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE C (the last hidden block, 31). As in case B the output buffer, holding the running sum `xo`,
    is stored whole with `xo` plus the contribution of the block; it is then read back, and stored
    whole again with that sum plus the bias row broadcast over the rows. -/
theorem runC (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S256x2048 .bf16) (harg7 : arg7.IsWhole) (arg8 : Memref sig .tc .vmem S1x2048 .f32) (harg8 : arg8.IsWhole) (arg9 : Memref sig .tc .vmem S1024x2048 .f32) (harg9 : arg9.IsWhole)
    (hc1 : ¬k0_cond1 i = 1#1) (hc2 : k0_cond2 i = 1#1) (hc3 : k0_cond3 i = 1#1)
    (x0 : Vec F S1024x2048 .bf16) (x1 : Vec F S2048x256 .bf16) (x2 : Vec F S2048x256 .bf16) (x3 : Vec F S1x256 .f32) (x4 : Vec F S1x256 .f32) (x5 : Vec F S256x2048 .bf16) (x6 : Vec F S1x2048 .f32) (xo : Vec F S1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 (k0_pay2 x0 x1 x3 x2 x4 x5 xo) x6)) -∗ K ⟨⟩))
      ⊢ wp frame (wpE (defs₀ (F := F)) Variants.none c none) E (cc0__swiglu_kernel i arg2 harg2 arg3 harg3 arg4 harg4 arg5 harg5 arg6 harg6 arg7 harg7 arg8 harg8 arg9 harg9) K := by
  simp only [cc0__swiglu_kernel_eq_skeleton]; unfold cc0__swiglu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  refine (read_writes_cons_whole _ _ hz _ _ _).trans ?_
  sl_unfold_words
  rw [View.readCov_unit_zero (S := S1024x2048) _ hz, readAt_whole arg2 harg2 hz, readAt_whole arg3 harg3 hz,
    readAt_whole arg4 harg4 hz, readAt_whole arg5 harg5 hz, readAt_whole arg6 harg6 hz, readAt_whole arg7 harg7 hz,
    readAt_whole arg8 harg8 hz, readAt_whole arg9 harg9 hz]

end Cert.Kernel.Hand

end
-- ==== Proof.K.Body.lean ====
/-
  The body side of the fused SwiGLU kernel's region. What the output window's staging buffer holds after
  the body at each grid point, by recursion on the point: at hidden block 0 the block's contribution, at a
  later block the running sum of the point before plus the block's contribution, and at the last block
  that sum plus the bias row. Then the proof data of the pipeline (the arrays as the region finds them,
  every input window's buffer left at its block, the output's at the running sum), what each window's
  buffer holds when the body is entered, and the body's triple at every grid point, by cases on the hidden
  block: the three runs.
-/
import proofs.«144755_j29515015258325_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- The running sum. After the body at position `n` of the grid the output window's staging buffer holds:
    at a point of hidden block 0, the contribution of that block (of the row tile's activations and the
    block's gate, up and down weights and biases); at a point of a later block, what the point before left
    plus the block's contribution; at a point of the last block, 31, that sum plus the bias row. The buffer
    is written back only after the last block, so between two points of one row tile it keeps its contents. -/
def outsAt0 (c : Dev nD) : (n : ℕ) → n < cfg0.N → Vec F S1024x2048 .f32
  | 0, hn => k0_pay1 (iblk m c 0 ⟨0, hn⟩) (iblk m c 1 ⟨0, hn⟩) (iblk m c 3 ⟨0, hn⟩) (iblk m c 2 ⟨0, hn⟩) (iblk m c 4 ⟨0, hn⟩) (iblk m c 5 ⟨0, hn⟩)
  | n + 1, hn =>
    if h0 : (n + 1) % 32 = 0 then
      k0_pay1 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩)
    else if h31 : (n + 1) % 32 = 31 then
      k0_pay3 (k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (outsAt0 c n (Nat.lt_of_succ_lt hn))) (iblk m c 6 ⟨n + 1, hn⟩)
    else
      k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (outsAt0 c n (Nat.lt_of_succ_lt hn))

/-- At a point of hidden block 0: the block's contribution. -/
theorem outsAt0_A (c : Dev nD) (t : Fin cfg0.N) (h0 : t.val % 32 = 0) :
    outsAt0 m c t.val t.isLt = k0_pay1 (iblk m c 0 t) (iblk m c 1 t) (iblk m c 3 t) (iblk m c 2 t) (iblk m c 4 t) (iblk m c 5 t) := by
  obtain ⟨n, hn⟩ := t
  cases n with
  | zero => exact rfl
  | succ n => exact (dif_pos h0).trans rfl

/-- At a point of a hidden block strictly between the first and the last: what the point before left plus
    the block's contribution. -/
theorem outsAt0_B (c : Dev nD) (t : Fin cfg0.N) (h0 : ¬t.val % 32 = 0) (h31 : ¬t.val % 32 = 31) :
    outsAt0 m c t.val t.isLt
      = k0_pay2 (iblk m c 0 t) (iblk m c 1 t) (iblk m c 3 t) (iblk m c 2 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h31).trans rfl)

/-- At a point of the last hidden block: what the point before left plus the block's contribution plus the
    bias row. -/
theorem outsAt0_C (c : Dev nD) (t : Fin cfg0.N) (h0 : ¬t.val % 32 = 0) (h31 : t.val % 32 = 31) :
    outsAt0 m c t.val t.isLt
      = k0_pay3 (k0_pay2 (iblk m c 0 t) (iblk m c 1 t) (iblk m c 3 t) (iblk m c 2 t) (iblk m c 4 t) (iblk m c 5 t) (outsAt0 m c (t.val - 1) (Nat.lt_of_le_of_lt (Nat.sub_le _ _) t.isLt))) (iblk m c 6 t) := by
  obtain ⟨n, hn⟩ := t
  cases n with
  | zero => exact (by exfalso; (try dsimp only at h0); exact absurd (Nat.zero_mod _) h0)
  | succ n => exact (dif_neg h0).trans ((dif_pos h31).trans rfl)

/-! ## The pipeline's proof data -/

/-- The proof data of the one pipeline on core `c`: the arrays as the region finds them; after the body at
    point `t` each input window's buffer at its block and the output's at the running sum; the invariant the
    scoped rest and the generator register, which the body does not touch; nothing owed. The gate and the up
    weights are two windows of ONE array, and so are the two biases: each of those four windows holds half of
    its array; every other window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt0 m c t.val t.isLt
  Φ _ := Pipeline.ΦA spec0 c
  q w := match w with
    | ⟨1, _⟩ => fullShare.left
    | ⟨2, _⟩ => fullShare.right
    | ⟨3, _⟩ => fullShare.left
    | ⟨4, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt0 m c t.val t.isLt := by dsimp only [dats]

/-- Each input window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a point of a hidden block after the first, the output window's current staging buffer holds what the
    body left at the point before: the point is not the first of the grid, the buffer is written back only
    after a last block (and the point before is no last block, this one being no first), and the window is
    live at every point and uncut. -/
theorem before0_7_kept (c : Dev nD) (t : Fin cfg0.N) (h0 : ¬t.val % 32 = 0) (d) :
    (dats m 0 c).before 7 t d = outsAt0 m c (t.val - 1) (Nat.lt_of_le_of_lt (Nat.sub_le _ _) t.isLt) := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    live7 (fun _ _ => rfl)]
  dsimp only [dats]

/-- Cases B and C both find the running sum of the point before. -/
theorem before0_7_B (c : Dev nD) (t : Fin cfg0.N) (h0 : ¬t.val % 32 = 0) (h31 : ¬t.val % 32 = 31) (d) :
    (dats m 0 c).before 7 t d = outsAt0 m c (t.val - 1) (Nat.lt_of_le_of_lt (Nat.sub_le _ _) t.isLt) :=
  before0_7_kept m c t h0 d
theorem before0_7_C (c : Dev nD) (t : Fin cfg0.N) (h0 : ¬t.val % 32 = 0) (h31 : t.val % 32 = 31) (d) :
    (dats m 0 c).before 7 t d = outsAt0 m c (t.val - 1) (Nat.lt_of_le_of_lt (Nat.sub_le _ _) t.isLt) :=
  before0_7_kept m c t h0 d

/-! ## The body obligation, at a generic point -/

/-- What the body is called with at point `t`: the invariant, the core owing nothing, and each window's
    current staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- And what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t)

set_option maxHeartbeats 1600000 in
/-- The body at any point. The inputs' buffers hold their blocks; the hidden block of the point says which
    of the three cases it is in; at a block after the first the output's buffer holds the running sum of the
    point before; so that case's run applies, and leaves the running sum of this point. The invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).leavesExact 7 t = owns (c : Thread nD τ) (ms0_7 t) fullShare ((dats m 0 c).after 7 t) from by
      unfold Dat.leavesExact; rw [live7 (grid0.coords t)],
    after0_7]
  have hN : t.val < 128 := lt_of_lt_of_eq t.isLt (show cfg0.N = 128 from N_0)
  by_cases h0 : t.val % 32 = 0
  · rw [outsAt0_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      ((hcond1 t).mpr h0) (fun h => (hcond2 t).mp h h0) (fun h => by have := (hcond3 t).mp h; omega)
      (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h31 : t.val % 32 = 31
    · rw [outsAt0_C m c t h0 h31]
      simp only [before0_7_C m c t h0 h31]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        (fun h => h0 ((hcond1 t).mp h)) ((hcond2 t).mpr h0) ((hcond3 t).mpr h31)
        (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [outsAt0_B m c t h0 h31]
      simp only [before0_7_B m c t h0 h31]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        (fun h => h0 ((hcond1 t).mp h)) ((hcond2 t).mpr h0) (fun h => h31 ((hcond3 t).mp h))
        (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Deal.lean ====
/-
  The kernel is handed the fused gate/up weight array through two windows (the gate columns and the up
  columns) and the fused bias row likewise, so six distinct buffers stand behind its eight windows. Each
  window that shares a buffer holds half of it: the whole buffers, at the contents the region finds, are
  dealt among the windows by splitting those two along the share.
-/
import proofs.«144755_j29515015258325_2_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA)
open Idealize.SL.BI (bigSepL bigSep_eq_bigSepL_of_eq)

/-- The share each window holds of its array: a half each for the two windows on the fused weights and
    for the two on the fused bias, the whole array for the others. -/
def qs : Fin 8 → PosShare TreeShare := fun w => match w with
  | ⟨1, _⟩ => fullShare.left | ⟨2, _⟩ => fullShare.right | ⟨3, _⟩ => fullShare.left | ⟨4, _⟩ => fullShare.right | _ => fullShare

variable (dats : (p : Fin 1) → (c : Dev nD) → Dat τ (Elt F) Unit ℕ (UR sig nD τ) ℕ (cfgs p) c)

/-- One window's array as the proof data holds it at entry — the whole buffer, at the window's share, at the
    region-entry contents. -/
theorem window_piece (c : Dev nD) (hA : ∀ w, (dats 0 c).A w = V m c (arrRef spec0 w)) (w : Fin 8) (q : PosShare TreeShare)
    (hs : (dats 0 c).share w = q) :
    ((cfg0.win w).arr.view.loc (c.tc : Thread nD τ) ↦[(cfg0.win w).arr.view.set]{(dats 0 c).share w} (dats 0 c).arrAt w 0 : sProp 𝕄)
      = ((c.tc : Thread nD τ).loc (arrRef spec0 w) ↦{q} V m c (arrRef spec0 w)) := by
  rw [hs, (arr_whole0 w).set_eq_univ, show (dats 0 c).arrAt w 0 = V m c (arrRef spec0 w) from hA w]

/-- The six buffers behind the windows' arrays, each whole at the region-entry contents, make the proof
    data's arrays at entry: the two shared buffers split in halves. -/
theorem arrays_deal (c : Dev nD) (hA : ∀ w, (dats 0 c).A w = V m c (arrRef spec0 w)) (hq : (dats 0 c).q = qs) :
    (arrBufs spec0 c (V m c) : sProp 𝕄) ⊢ (dats 0 c).arrays ((dats 0 c).arrAt · 0) := by
  have hb : (arrBufs spec0 c (V m c) : sProp 𝕄)
      = iprop((((c : Thread nD τ).loc main_v1) ↦{fullShare} V m c main_v1) ∗ (((c : Thread nD τ).loc main_v2) ↦{fullShare} V m c main_v2)
          ∗ (((c : Thread nD τ).loc main_v4) ↦{fullShare} V m c main_v4) ∗ (((c : Thread nD τ).loc main_v3) ↦{fullShare} V m c main_v3)
          ∗ (((c : Thread nD τ).loc main_v5) ↦{fullShare} V m c main_v5) ∗ (((c : Thread nD τ).loc main_v6) ↦{fullShare} V m c main_v6)) := by
    unfold arrBufs
    exact bigSep_eq_bigSepL_of_eq [main_v1, main_v2, main_v4, main_v3, main_v5, main_v6] (by decide) (by decide) _
  rw [hb]
  unfold Dat.arrays
  rw [bigSep_W0]
  have s0 : (dats 0 c).share 0 = fullShare := by unfold Dat.share; rw [hq]; rfl
  have s1 : (dats 0 c).share 1 = fullShare.left := by unfold Dat.share; rw [hq]; rfl
  have s2 : (dats 0 c).share 2 = fullShare.right := by unfold Dat.share; rw [hq]; rfl
  have s3 : (dats 0 c).share 3 = fullShare.left := by unfold Dat.share; rw [hq]; rfl
  have s4 : (dats 0 c).share 4 = fullShare.right := by unfold Dat.share; rw [hq]; rfl
  have s5 : (dats 0 c).share 5 = fullShare := by unfold Dat.share; rw [hq]; rfl
  have s6 : (dats 0 c).share 6 = fullShare := by unfold Dat.share; rw [hq]; rfl
  have s7 : (dats 0 c).share 7 = fullShare := by unfold Dat.share; rfl
  iintro ⟨H1, H2, H4, H3, H5, H6⟩
  ihave H2' := (pointsTo_share (PosShare.mem_left_op_right fullShare)).1 $$ H2
  icases H2' with ⟨H2a, H2b⟩
  ihave H4' := (pointsTo_share (PosShare.mem_left_op_right fullShare)).1 $$ H4
  icases H4' with ⟨H4a, H4b⟩
  ihave G0 := (Entails.of_eq (window_piece m dats c hA 0 _ s0).symm) $$ H1
  ihave G1 := (Entails.of_eq (window_piece m dats c hA 1 _ s1).symm) $$ H2a
  ihave G2 := (Entails.of_eq (window_piece m dats c hA 2 _ s2).symm) $$ H2b
  ihave G3 := (Entails.of_eq (window_piece m dats c hA 3 _ s3).symm) $$ H4a
  ihave G4 := (Entails.of_eq (window_piece m dats c hA 4 _ s4).symm) $$ H4b
  ihave G5 := (Entails.of_eq (window_piece m dats c hA 5 _ s5).symm) $$ H3
  ihave G6 := (Entails.of_eq (window_piece m dats c hA 6 _ s6).symm) $$ H5
  ihave G7 := (Entails.of_eq (window_piece m dats c hA 7 _ s7).symm) $$ H6
  isplitl [G0]; · iexact G0
  isplitl [G1]; · iexact G1
  isplitl [G2]; · iexact G2
  isplitl [G3]; · iexact G3
  isplitl [G4]; · iexact G4
  isplitl [G5]; · iexact G5
  isplitl [G6]; · iexact G6
  iexact G7

end Cert.Kernel.Hand

end
-- ==== Proof.K.Tail.lean ====
/-
  After the region @main reshapes the kernel's result [4096, 2048] back to [2, 2048, 2048]. The buffers at the
  region's exit are those at its entry, with the output array at what the write-backs left; the reshape reads
  that array and writes the result buffer, and touches nothing else.
-/
import proofs.«144755_j29515015258325_2_alg».proof.Proof.K.Deal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA)
open Idealize.SL.BI (bigSepL bigSep_eq_bigSepL_of_eq)

variable (dats : (p : Fin 1) → (c : Dev nD) → Dat τ (Elt F) Unit ℕ (UR sig nD τ) ℕ (cfgs p) c)

/-- A core's buffers at the region's exit: as at its entry, the output array at what the write-backs left. -/
def Wexit (c : Dev nD) : Valuation τ sig (Elt F) :=
  Function.update (V0 m c) (Proc.devRef .tc main_v6) ((dats 0 c).arrAt 7 cfg0.N)

/-- A core's buffers when @main returns: the exit contents after the closing reshape. -/
def Vend (c : Dev nD) (b : Ref sig .tc) : Buf (Elt F) ((c : Thread nD τ).loc b) :=
  StableHlo.after hostOps1 (Wexit m dats c) (Proc.devRef .tc b)

/-- The reshape writes only the result buffer and the write-backs only the output array: every other buffer
    ends as the region found it. -/
theorem Vend_of_ne (c : Dev nD) (b : Ref sig .tc) (h7 : b ≠ main_v7) (h6 : b ≠ main_v6) : Vend m dats c b = V m c b := by
  unfold Vend
  rw [StableHlo.after_of_forall_not_mem _ _ fun op hop => ?_]
  · unfold Wexit
    rw [Function.update_of_ne (StableHlo.devRef_ne_of_ne h6)]
  · simp only [hostOps1, List.mem_cons, List.mem_nil_iff, or_false] at hop
    subst hop
    rw [StableHlo.reshape_writes, Finset.mem_singleton]
    exact StableHlo.devRef_ne_of_ne h7

/-- The output array is not written by the reshape. -/
theorem Vend_out (c : Dev nD) : Vend m dats c main_v6 = (dats 0 c).arrAt 7 cfg0.N := by
  unfold Vend
  rw [StableHlo.after_of_forall_not_mem _ _ fun op hop => ?_]
  · unfold Wexit
    rw [Function.update_self]
  · simp only [hostOps1, List.mem_cons, List.mem_nil_iff, or_false] at hop
    subst hop
    rw [StableHlo.reshape_writes, Finset.mem_singleton]
    exact StableHlo.devRef_ne_of_ne (by decide)

/-- The two buffers the closing reshape touches: it reads the output array and writes the result. -/
def tailSet : Finset (DevRef τ sig) := {Proc.devRef .tc main_v6, Proc.devRef .tc main_v7}

theorem held_tailSet (c : Dev nD) (W : Valuation τ sig (Elt F)) :
    (StableHlo.held (c.tc : Thread nD τ) tailSet W : sProp 𝕄)
      = iprop((((c : Thread nD τ).loc main_v6) ↦{fullShare} W (Proc.devRef .tc main_v6))
          ∗ (((c : Thread nD τ).loc main_v7) ↦{fullShare} W (Proc.devRef .tc main_v7))) := by
  unfold StableHlo.held tailSet
  exact bigSep_eq_bigSepL_of_eq [Proc.devRef .tc main_v6, Proc.devRef .tc main_v7] (by decide) (by decide) _

/-- At the region's exit the pair holds the output array's final contents and the result buffer as the region found it. -/
theorem held_exit (c : Dev nD) :
    (StableHlo.held (c.tc : Thread nD τ) tailSet (Wexit m dats c) : sProp 𝕄)
      = iprop((((c : Thread nD τ).loc main_v6) ↦{fullShare} (dats 0 c).arrAt 7 cfg0.N)
          ∗ (((c : Thread nD τ).loc main_v7) ↦{fullShare} V m c main_v7)) := by
  rw [held_tailSet]
  unfold Wexit
  rw [Function.update_self, Function.update_of_ne (StableHlo.devRef_ne_of_ne (by decide))]

/-- After the reshape it holds the same array and the reshaped result. -/
theorem held_end (c : Dev nD) :
    (StableHlo.held (c.tc : Thread nD τ) tailSet (StableHlo.after (List.flatten [hostOps1]) (Wexit m dats c)) : sProp 𝕄)
      = iprop((((c : Thread nD τ).loc main_v6) ↦{fullShare} (dats 0 c).arrAt 7 cfg0.N)
          ∗ (((c : Thread nD τ).loc main_v7) ↦{fullShare} Vend m dats c main_v7)) := by
  rw [held_tailSet, ← Vend_out m dats c]
  simp only [List.flatten_cons, List.flatten_nil, List.append_nil]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  rw [StableHlo.reshape_bufs]
  exact subset_rfl

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- The continuation after the region: holding the region boundary, the arrays at their final contents and the
    buffers that bypass the region as the region found them, the reshape runs, and hands back the arrays and the
    bypassing buffers at the contents @main returns with. -/
theorem tail_reshape (c : Dev nD) (Q' : PUnit → sProp 𝕄) :
    iprop((iprop((dats 0 c).arrays ((dats 0 c).arrAt · cfg0.N) ∗ unscopedRest spec0 c (Vend m dats c)) -∗ Q' ⟨⟩)
        ∗ boundary (c.tc : Thread nD τ) ∗ (dats 0 c).arrays ((dats 0 c).arrAt · cfg0.N) ∗ unscopedRest spec0 c (V m c))
      ⊢ wp frame (wpE (defs (F := F)) (Variants.lift Variants.none) (c.tc : Thread nD τ) none) Set.univ
          (Pipeline.chain [StableHlo.seq hostOps1]) Q' := by
  have s7 : (dats 0 c).share 7 = fullShare := by unfold Dat.share; rfl
  have p7 : ∀ X, ((cfg0.win 7).arr.view.loc (c.tc : Thread nD τ) ↦[(cfg0.win 7).arr.view.set]{(dats 0 c).share 7} X : sProp 𝕄)
      = ((c.tc : Thread nD τ).loc main_v6 ↦{fullShare} X) := fun X => by rw [s7, (arr_whole0 7).set_eq_univ]
  rw [unscopedRest0_eq, unscopedRest0_eq,
    Vend_of_ne m dats c main_arg0 (by decide) (by decide), Vend_of_ne m dats c main_arg1 (by decide) (by decide),
    Vend_of_ne m dats c main_arg2 (by decide) (by decide), Vend_of_ne m dats c main_arg3 (by decide) (by decide),
    Vend_of_ne m dats c main_arg4 (by decide) (by decide), Vend_of_ne m dats c main_v0 (by decide) (by decide)]
  unfold Dat.arrays
  rw [bigSep_W0]
  iintro ⟨Hk, Hb, ⟨A0, A1, A2, A3, A4, A5, A6, A7⟩, ⟨R0, R1, R2, R3, R4, R5, R7⟩⟩
  ihave A7' := (Entails.of_eq (p7 _)) $$ A7
  ihave Hh := (Entails.of_eq (held_exit m dats c).symm) $$ [A7' R7]
  · isplitl [A7']; · iexact A7'
    iexact R7
  rw [← List.append_nil ([StableHlo.seq hostOps1] : List (Prog (TpuEff nD τ sig (Elt F) (Pipeline.Sig Λ₀ (Fin 1) fun p => (pcfgs (F := F) p).Adm) .tc) PUnit))]
  iapply (Pipeline.wp_seqs_then (pcfgs (F := F)) defs₀ Variants.none c tailSet [] [hostOps1] tail_sub tail_fresh (Wexit m dats c)) $$ [Hb Hh]
  · isplitl [Hb]; · iexact Hb
    iexact Hh
  iintro ⟨Hb, Hh⟩
  ihave Hh' := (Entails.of_eq (held_end m dats c)) $$ Hh
  rw [Pipeline.chain_nil, wp_pure]
  imodintro
  iapply Hk
  icases Hh' with ⟨A7', R7⟩
  ihave A7 := (Entails.of_eq (p7 _).symm) $$ A7'
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  · isplitl [R0]; · iexact R0
    isplitl [R1]; · iexact R1
    isplitl [R2]; · iexact R2
    isplitl [R3]; · iexact R3
    isplitl [R4]; · iexact R4
    isplitl [R5]; · iexact R5
    iexact R7

end Cert.Kernel.Hand

end
-- ==== Proof.K.Launch.lean ====
/-
  The run of @main from the body's obligation. The launch hands each core its buffers; the six host lines
  before the region leave them at the entry contents; the buffers behind the windows are dealt among the eight
  windows (two pairs of windows share a buffer, half each); the pipeline runs the body at its 128 grid points;
  the reshape after the region runs from the exit contents. Every weakly fair execution ends, with each
  window's array at what the write-backs left and every other unscoped buffer at what the reshape leaves.
-/
import proofs.«144755_j29515015258325_2_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA restRefs)

variable (dats : (p : Fin 1) → (c : Dev nD) → Dat τ (Elt F) Unit ℕ (UR sig nD τ) ℕ (cfgs p) c)

set_option backward.isDefEq.respectTransparency.types false in
/-- For any proof data whose arrays are the region-entry contents, whose shares are the halves and wholes above,
    which owes nothing and whose invariant is the scoped rest and the generator register at both ends: from the
    body's obligation, every weakly fair execution of @main terminates without a fault, each window's array ends at
    the proof data's final contents, and every other unscoped buffer at the contents @main returns with. -/
theorem run_of
    (hbody : ∀ c, Pipeline.BodyObligationLoose (dats 0 c) defs₀ Variants.none () Set.univ)
    (hA : ∀ c w, (dats 0 c).A w = V m c (arrRef spec0 w))
    (hq : ∀ c, (dats 0 c).q = qs)
    (howed : ∀ c t, (dats 0 c).owed t = 0)
    (hin : ∀ c, (ΦA spec0 c : sProp 𝕄) ⊢ (dats 0 c).Φ 0)
    (hout : ∀ c, (dats 0 c).Φ (Fin.last cfg0.N) ⊢ (ΦA spec0 c : sProp 𝕄)) :
    θ_run defs (onTc (τ := τ) (main (F := F))) (s₀ m ρ) (Pipeline.FramePost cfgs dats 0 (Vend m dats)) := by
  classical
  exact Pipeline.θ_run_region_pf_tail (pcfgs (F := F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal m dats c (hA c) (hq c))
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (Vend m dats c))
    (hX := fun c => by
      rw [Pipeline.unscopedRestP_none]
      iintro ⟨HU, -, -, -, Hp, -⟩; imodintro
      isplitl [Hp]; · iexists _; iexact Hp
      iexact HU)
    (hin := fun c => (show _ ⊢ (ΦA spec0 c : sProp 𝕄) by
      unfold ΦA; iintro ⟨Hp, -, Hr⟩
      isplitl [Hr] <;> iassumption).trans (hin c))
    (hout := fun c => (hout c).trans (by
      rw [Pipeline.ownSems0_none]; unfold ΦA
      iintro ⟨Hr, Hp⟩
      isplitl [Hp]; · iexact Hp
      isplitr; · iempintro
      iexact Hr))
    (htail := fun c Q' => tail_reshape m dats c Q')
    (QY := fun c s => ∀ b ∈ restRefs sig spec0, s.mem ((c.tc : Thread nD τ).loc b) = Vend m dats c b)
    (hY := fun c s' => by
      iintro ⟨-, HU, HSI⟩
      unfold unscopedRest
      imodintro
      iapply (pointsTo_read_all (restRefs sig spec0) (fun b => (c.tc : Thread nD τ).loc b) (Vend m dats c) s')
      isplitl [HU] <;> iassumption)
    (hQ := fun s h c => ⟨(h c).1, (h c).2.2⟩)

end Cert.Kernel.Hand

end
-- ==== Proof.K.FrameOf.lean ====
/-
  What the run says of the buffers the claims name. The five argument arrays are written by no host line and by
  no window's write-back, so they end as launched; the result buffer ends at the reshape of the output array's
  final contents.
-/
import proofs.«144755_j29515015258325_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA restRefs)

variable (dats : (p : Fin 1) → (c : Dev nD) → Dat τ (Elt F) Unit ℕ (UR sig nD τ) ℕ (cfgs p) c)

/-- The host lines before the region write only their own result buffers: a buffer that is none of them enters the
    region as launched. -/
theorem V_of_not_written (c : Dev nD) (b : Ref sig .tc) (h0 : b ≠ main_v0) (h1 : b ≠ main_v1) (h2 : b ≠ main_v2) (h3 : b ≠ main_v3)
    (h4 : b ≠ main_v4) (h5 : b ≠ main_v5) : V m c b = m ((c : Thread nD τ).loc b) := by
  dsimp only [V, V0]
  simp only [List.flatten_cons, List.flatten_nil, List.append_nil]
  rw [StableHlo.after_of_forall_not_mem _ _ fun op hop => ?_]
  simp only [hostOps0, List.mem_cons, List.mem_nil_iff, or_false] at hop
  rcases hop with rfl | rfl | rfl | rfl | rfl | rfl
  all_goals simp only [StableHlo.unary_writes, StableHlo.reshape_writes, Finset.mem_singleton]
  all_goals first
    | exact StableHlo.devRef_ne_of_ne h0 | exact StableHlo.devRef_ne_of_ne h1 | exact StableHlo.devRef_ne_of_ne h2
    | exact StableHlo.devRef_ne_of_ne h3 | exact StableHlo.devRef_ne_of_ne h4 | exact StableHlo.devRef_ne_of_ne h5

/-- An argument array ends as launched. -/
theorem arg_kept (c : Dev nD) (b : Ref sig .tc) (hr : b ∈ restRefs sig spec0) (h0 : b ≠ main_v0) (h1 : b ≠ main_v1) (h2 : b ≠ main_v2)
    (h3 : b ≠ main_v3) (h4 : b ≠ main_v4) (h5 : b ≠ main_v5) (h6 : b ≠ main_v6) (h7 : b ≠ main_v7)
    (r : PUnit × MemSt nD τ sig (Elt F)) (h : Pipeline.FramePost cfgs dats 0 (Vend m dats) r) :
    r.2.mem ((c.tc : Thread nD τ).loc b) = m ((c.tc : Thread nD τ).loc b) :=
  ((h c).2 b hr).trans ((Vend_of_ne m dats c b h7 h6).trans (V_of_not_written m c b h0 h1 h2 h3 h4 h5))

/-- The run's post read at the buffers the claims name: the five arguments as launched, and the result buffer at
    what the closing reshape makes of the output array's final contents. -/
theorem post_of (r : PUnit × MemSt nD τ sig (Elt F)) (h : Pipeline.FramePost cfgs dats 0 (Vend m dats) r) (c : Dev nD) :
    r.2.mem ((c.tc : Thread nD τ).loc main_v7) = Vend m dats c main_v7
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c).2 main_v7 (by decide),
   arg_kept m dats c main_arg0 (by decide) (by decide) (by decide) (by decide) (by decide) (by decide) (by decide) (by decide) (by decide) r h,
   arg_kept m dats c main_arg1 (by decide) (by decide) (by decide) (by decide) (by decide) (by decide) (by decide) (by decide) (by decide) r h,
   arg_kept m dats c main_arg2 (by decide) (by decide) (by decide) (by decide) (by decide) (by decide) (by decide) (by decide) (by decide) r h,
   arg_kept m dats c main_arg3 (by decide) (by decide) (by decide) (by decide) (by decide) (by decide) (by decide) (by decide) (by decide) r h,
   arg_kept m dats c main_arg4 (by decide) (by decide) (by decide) (by decide) (by decide) (by decide) (by decide) (by decide) (by decide) r h⟩

/-- The result buffer's final contents: the output array [4096, 2048] reshaped to [2, 2048, 2048]. -/
theorem Vend_result (c : Dev nD) :
    Vend m dats c main_v7 = shapeCast S2x2048x2048 ((dats 0 c).arrAt 7 cfg0.N) shapeCasts_S4096x2048_S2x2048x2048 := by
  unfold Vend
  dsimp only [hostOps1]
  after_results
  unfold Wexit
  rw [Function.update_self]
  rfl

end Cert.Kernel.Hand

end
-- ==== Proof.K.Frame.lean ====
/-
  The run of @main and the frame: the body's obligation at every grid point (the three control cases of the
  accumulation) discharges the launch, so every weakly fair execution terminates without a fault and the five
  argument arrays end as launched.
-/
import proofs.«144755_j29515015258325_2_alg».proof.Proof.K.Body
import proofs.«144755_j29515015258325_2_alg».proof.Proof.K.FrameOf

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; each window's array ends at what the write-backs left and
    every other unscoped buffer at what @main returns with. -/
theorem run_main : θ_run defs (onTc (τ := τ) (main (F := F))) (s₀ m ρ) (Pipeline.FramePost cfgs (dats m) 0 (Vend m (dats m))) :=
  run_of m ρ (dats m) (fun c => (body_obligation m c).loose) (A_eq m) (fun _ => rfl) (fun _ _ => rfl)
    (fun _ => .rfl) (fun _ => .rfl)

/-- The frame: @main runs to the end and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (post_of m (dats m) r h c).2) (run_main m ρ)

end Cert.Kernel.Hand

end
-- ==== Proof.KI.Entry.lean ====
/-
  The fused SwiGLU kernel's program around its one region: what every buffer of a core holds when the
  region is entered (the six host lines before it applied to the launch memory), that @main is those
  lines, the region, and one reshape after it, and the block of each window's array at a grid point.
-/
import proofs.«144755_j29515015258325_2_alg».proof.Proof.Gen.KernelIdeal.Launch
import proofs.«144755_j29515015258325_2_alg».proof.Proof.Gen.KernelIdeal.Skeleton
import proofs.«144755_j29515015258325_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch memory after the host lines
    that come before the region (two reshapes of the biases, one of the activations, three casts). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, and the reshape after it: it reduces to the
    region continued by that reshape, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Shared.lean ====
/-
  What the three runs of the fused SwiGLU body and the body obligation share: the three branch
  conditions of the body in closed form over the grid (they read the hidden-block coordinate only: the
  first holds at block 0, the second at every later block, the third at block 31), the output window
  live at every point, each window's current staging memref at a point, and every input window's
  staging buffer holding that window's block at every point, whether the point fetched it or not.
-/
import proofs.«144755_j29515015258325_2_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The first branch (store the block's contribution) is taken exactly at hidden block 0. -/
theorem hcond1 : ∀ t : Fin cfg0.N, k0_cond1 (grid0.coords t) = 1#1 ↔ t.val % 32 = 0 :=
  (by decide +kernel : ∀ t : Fin grid0.N, k0_cond1 (grid0.coords t) = 1#1 ↔ t.val % 32 = 0)

/-- The second branch (add the block's contribution) is taken exactly at the hidden blocks after 0. -/
theorem hcond2 : ∀ t : Fin cfg0.N, k0_cond2 (grid0.coords t) = 1#1 ↔ t.val % 32 ≠ 0 :=
  (by decide +kernel : ∀ t : Fin grid0.N, k0_cond2 (grid0.coords t) = 1#1 ↔ t.val % 32 ≠ 0)

/-- The third branch (add the bias row) is taken exactly at the last hidden block, 31. -/
theorem hcond3 : ∀ t : Fin cfg0.N, k0_cond3 (grid0.coords t) = 1#1 ↔ t.val % 32 = 31 :=
  (by decide +kernel : ∀ t : Fin grid0.N, k0_cond3 (grid0.coords t) = 1#1 ↔ t.val % 32 = 31)

/-- The output window is live at every grid coordinate: block 0 takes the first branch and every
    other block the second, so some store into it happens at every point. -/
theorem live7 : ∀ i : grid0.Coords, cfg0.idle 7 i = false := by
  intro i
  show (!(k0_cond1 i == 1#1) && !(k0_cond2 i == 1#1) && !(k0_cond3 i == 1#1)) = false
  unfold k0_cond1 k0_cond2 k0_cond3
  generalize i 1 = j
  revert j
  decide +kernel

/-! ## The staging memrefs at a point -/

/-- Window 0's current staging memref at point `t`, and that it is a whole buffer. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
/-- Window 1's current staging memref at point `t`, and that it is a whole buffer. -/
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
/-- Window 2's current staging memref at point `t`, and that it is a whole buffer. -/
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
/-- Window 3's current staging memref at point `t`, and that it is a whole buffer. -/
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
/-- Window 4's current staging memref at point `t`, and that it is a whole buffer. -/
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
/-- Window 5's current staging memref at point `t`, and that it is a whole buffer. -/
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
/-- Window 6's current staging memref at point `t`, and that it is a whole buffer. -/
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
/-- Window 7's current staging memref at point `t`, and that it is a whole buffer. -/
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)

/-! ## The inputs' staging buffers hold their blocks -/

/-- Input window 0's current staging buffer holds its block at every point, fetched there or not
    (unfetched, the block index has not moved), for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not
    (unfetched, the block index has not moved), for any proof data over the region-entry arrays whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not
    (unfetched, the block index has not moved), for any proof data over the region-entry arrays whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not
    (unfetched, the block index has not moved), for any proof data over the region-entry arrays whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not
    (unfetched, the block index has not moved), for any proof data over the region-entry arrays whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not
    (unfetched, the block index has not moved), for any proof data over the region-entry arrays whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not
    (unfetched, the block index has not moved), for any proof data over the region-entry arrays whose
    body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.RunA.lean ====
/-
  The fused SwiGLU body at a point of hidden block 0 (first branch taken, the other two not), on any
  whole staging memrefs: with the seven input buffers at their contents and the output buffer at
  anything, the body runs and hands back the inputs as they were and the output buffer holding the
  block's contribution, the payload of its one whole-buffer store.
-/
import proofs.«144755_j29515015258325_2_alg».proof.Proof.KI.Shared
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer rectangle, as the printed rectangles spell them. -/
theorem hz : (![0, 0] : Fin 2 → Nat) = fun _ => 0 := funext fun a => by fin_cases a <;> rfl

/-! ## Whole-buffer loads and stores, over any shape -/

section Whole

variable {Val : EltTy → Type} [∀ e, Nonempty (Val e)] {sg : RefSig} {κ : Kind} {sp : Space} {S : Shape} {e : EltTy}

/-- One store through the whole-buffer rectangle leaves its payload, whatever the buffer held. -/
theorem read_writes_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A store through the whole-buffer rectangle, last, leaves its payload, whatever the earlier stores were. -/
theorem read_writes_cons_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-buffer rectangle of a whole memref holding `X` reads `X`. -/
theorem readAt_whole (mr : Memref sg κ sp S e) (hm : mr.IsWhole) {off : Fin S.rank → Nat} (h : off = fun _ => 0)
    (inb : ∀ a, off a + S.size a ≤ S.size a) (X : S.Idx → Val e) :
    mr.view.readAt Val (Rect.unit off S.size inb).toLoadRect (hm.unread X) = X := by
  rw [View.readAt_eq_ld, hm.read_unread, View.ld_unit_zero h]

end Whole

set_option maxHeartbeats 1000000 in
/-- CASE A (hidden block 0). The output buffer is read once (the value is dropped) and then stored
    whole with the contribution of the block, computed from the six operand blocks: so whatever it
    held, it ends holding that contribution. -/
theorem runA (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S256x2048 .bf16) (harg7 : arg7.IsWhole) (arg8 : Memref sig .tc .vmem S1x2048 .f32) (harg8 : arg8.IsWhole) (arg9 : Memref sig .tc .vmem S1024x2048 .f32) (harg9 : arg9.IsWhole)
    (hc1 : k0_cond1 i = 1#1) (hc2 : ¬k0_cond2 i = 1#1) (hc3 : ¬k0_cond3 i = 1#1)
    (x0 : Vec F S1024x2048 .bf16) (x1 : Vec F S2048x256 .bf16) (x2 : Vec F S2048x256 .bf16) (x3 : Vec F S1x256 .f32) (x4 : Vec F S1x256 .f32) (x5 : Vec F S256x2048 .bf16) (x6 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1 x3 x2 x4 x5)) -∗ K ⟨⟩))
      ⊢ wp frame (wpE (defs₀ (F := F)) Variants.none c none) E (cc0__swiglu_kernel i arg2 harg2 arg3 harg3 arg4 harg4 arg5 harg5 arg6 harg6 arg7 harg7 arg8 harg8 arg9 harg9) K := by
  simp only [cc0__swiglu_kernel_eq_skeleton]; unfold cc0__swiglu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  refine (read_writes_whole _ _ hz _ _).trans ?_
  rw [readAt_whole arg2 harg2 hz, readAt_whole arg3 harg3 hz, readAt_whole arg4 harg4 hz, readAt_whole arg5 harg5 hz,
    readAt_whole arg6 harg6 hz, readAt_whole arg7 harg7 hz]

end Cert.KernelIdeal.Hand

end
-- ==== Proof.KI.RunB.lean ====
/-
  The fused SwiGLU body at a point of a hidden block strictly between the first and the last (second
  branch taken, the other two not), on any whole staging memrefs: with the seven input buffers at their
  contents and the output buffer at the running sum, the body runs and hands back the inputs as they
  were and the output buffer holding the running sum plus the block's contribution.
-/
import proofs.«144755_j29515015258325_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE B (hidden blocks 1 to 30). The output buffer, holding the running sum `xo`, is read (twice:
    the second value is dropped) and stored whole with `xo` plus the contribution of the block. -/
theorem runB (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S256x2048 .bf16) (harg7 : arg7.IsWhole) (arg8 : Memref sig .tc .vmem S1x2048 .f32) (harg8 : arg8.IsWhole) (arg9 : Memref sig .tc .vmem S1024x2048 .f32) (harg9 : arg9.IsWhole)
    (hc1 : ¬k0_cond1 i = 1#1) (hc2 : k0_cond2 i = 1#1) (hc3 : ¬k0_cond3 i = 1#1)
    (x0 : Vec F S1024x2048 .bf16) (x1 : Vec F S2048x256 .bf16) (x2 : Vec F S2048x256 .bf16) (x3 : Vec F S1x256 .f32) (x4 : Vec F S1x256 .f32) (x5 : Vec F S256x2048 .bf16) (x6 : Vec F S1x2048 .f32) (xo : Vec F S1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 x0 x1 x3 x2 x4 x5 xo)) -∗ K ⟨⟩))
      ⊢ wp frame (wpE (defs₀ (F := F)) Variants.none c none) E (cc0__swiglu_kernel i arg2 harg2 arg3 harg3 arg4 harg4 arg5 harg5 arg6 harg6 arg7 harg7 arg8 harg8 arg9 harg9) K := by
  simp only [cc0__swiglu_kernel_eq_skeleton]; unfold cc0__swiglu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  refine (read_writes_whole _ _ hz _ _).trans ?_
  rw [readAt_whole arg2 harg2 hz, readAt_whole arg3 harg3 hz, readAt_whole arg4 harg4 hz, readAt_whole arg5 harg5 hz,
    readAt_whole arg6 harg6 hz, readAt_whole arg7 harg7 hz, readAt_whole arg9 harg9 hz]

end Cert.KernelIdeal.Hand

end
-- ==== Proof.KI.RunC.lean ====
/-
  The fused SwiGLU body at a point of the last hidden block (second and third branches taken, the first
  not), on any whole staging memrefs: with the seven input buffers at their contents and the output
  buffer at the running sum, the body runs and hands back the inputs as they were and the output buffer
  holding the running sum plus the block's contribution plus the bias row.
-/
import proofs.«144755_j29515015258325_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE C (the last hidden block, 31). As in case B the output buffer, holding the running sum `xo`,
    is stored whole with `xo` plus the contribution of the block; it is then read back, and stored
    whole again with that sum plus the bias row broadcast over the rows. -/
theorem runC (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S256x2048 .bf16) (harg7 : arg7.IsWhole) (arg8 : Memref sig .tc .vmem S1x2048 .f32) (harg8 : arg8.IsWhole) (arg9 : Memref sig .tc .vmem S1024x2048 .f32) (harg9 : arg9.IsWhole)
    (hc1 : ¬k0_cond1 i = 1#1) (hc2 : k0_cond2 i = 1#1) (hc3 : k0_cond3 i = 1#1)
    (x0 : Vec F S1024x2048 .bf16) (x1 : Vec F S2048x256 .bf16) (x2 : Vec F S2048x256 .bf16) (x3 : Vec F S1x256 .f32) (x4 : Vec F S1x256 .f32) (x5 : Vec F S256x2048 .bf16) (x6 : Vec F S1x2048 .f32) (xo : Vec F S1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 (k0_pay2 x0 x1 x3 x2 x4 x5 xo) x6)) -∗ K ⟨⟩))
      ⊢ wp frame (wpE (defs₀ (F := F)) Variants.none c none) E (cc0__swiglu_kernel i arg2 harg2 arg3 harg3 arg4 harg4 arg5 harg5 arg6 harg6 arg7 harg7 arg8 harg8 arg9 harg9) K := by
  simp only [cc0__swiglu_kernel_eq_skeleton]; unfold cc0__swiglu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  refine (read_writes_cons_whole _ _ hz _ _ _).trans ?_
  sl_unfold_words
  rw [View.readCov_unit_zero (S := S1024x2048) _ hz, readAt_whole arg2 harg2 hz, readAt_whole arg3 harg3 hz,
    readAt_whole arg4 harg4 hz, readAt_whole arg5 harg5 hz, readAt_whole arg6 harg6 hz, readAt_whole arg7 harg7 hz,
    readAt_whole arg8 harg8 hz, readAt_whole arg9 harg9 hz]

end Cert.KernelIdeal.Hand

end
-- ==== Proof.KI.Body.lean ====
/-
  The body side of the fused SwiGLU kernel's region. What the output window's staging buffer holds after
  the body at each grid point, by recursion on the point: at hidden block 0 the block's contribution, at a
  later block the running sum of the point before plus the block's contribution, and at the last block
  that sum plus the bias row. Then the proof data of the pipeline (the arrays as the region finds them,
  every input window's buffer left at its block, the output's at the running sum), what each window's
  buffer holds when the body is entered, and the body's triple at every grid point, by cases on the hidden
  block: the three runs.
-/
import proofs.«144755_j29515015258325_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- The running sum. After the body at position `n` of the grid the output window's staging buffer holds:
    at a point of hidden block 0, the contribution of that block (of the row tile's activations and the
    block's gate, up and down weights and biases); at a point of a later block, what the point before left
    plus the block's contribution; at a point of the last block, 31, that sum plus the bias row. The buffer
    is written back only after the last block, so between two points of one row tile it keeps its contents. -/
def outsAt0 (c : Dev nD) : (n : ℕ) → n < cfg0.N → Vec F S1024x2048 .f32
  | 0, hn => k0_pay1 (iblk m c 0 ⟨0, hn⟩) (iblk m c 1 ⟨0, hn⟩) (iblk m c 3 ⟨0, hn⟩) (iblk m c 2 ⟨0, hn⟩) (iblk m c 4 ⟨0, hn⟩) (iblk m c 5 ⟨0, hn⟩)
  | n + 1, hn =>
    if h0 : (n + 1) % 32 = 0 then
      k0_pay1 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩)
    else if h31 : (n + 1) % 32 = 31 then
      k0_pay3 (k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (outsAt0 c n (Nat.lt_of_succ_lt hn))) (iblk m c 6 ⟨n + 1, hn⟩)
    else
      k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (outsAt0 c n (Nat.lt_of_succ_lt hn))

/-- At a point of hidden block 0: the block's contribution. -/
theorem outsAt0_A (c : Dev nD) (t : Fin cfg0.N) (h0 : t.val % 32 = 0) :
    outsAt0 m c t.val t.isLt = k0_pay1 (iblk m c 0 t) (iblk m c 1 t) (iblk m c 3 t) (iblk m c 2 t) (iblk m c 4 t) (iblk m c 5 t) := by
  obtain ⟨n, hn⟩ := t
  cases n with
  | zero => exact rfl
  | succ n => exact (dif_pos h0).trans rfl

/-- At a point of a hidden block strictly between the first and the last: what the point before left plus
    the block's contribution. -/
theorem outsAt0_B (c : Dev nD) (t : Fin cfg0.N) (h0 : ¬t.val % 32 = 0) (h31 : ¬t.val % 32 = 31) :
    outsAt0 m c t.val t.isLt
      = k0_pay2 (iblk m c 0 t) (iblk m c 1 t) (iblk m c 3 t) (iblk m c 2 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h31).trans rfl)

/-- At a point of the last hidden block: what the point before left plus the block's contribution plus the
    bias row. -/
theorem outsAt0_C (c : Dev nD) (t : Fin cfg0.N) (h0 : ¬t.val % 32 = 0) (h31 : t.val % 32 = 31) :
    outsAt0 m c t.val t.isLt
      = k0_pay3 (k0_pay2 (iblk m c 0 t) (iblk m c 1 t) (iblk m c 3 t) (iblk m c 2 t) (iblk m c 4 t) (iblk m c 5 t) (outsAt0 m c (t.val - 1) (Nat.lt_of_le_of_lt (Nat.sub_le _ _) t.isLt))) (iblk m c 6 t) := by
  obtain ⟨n, hn⟩ := t
  cases n with
  | zero => exact (by exfalso; (try dsimp only at h0); exact absurd (Nat.zero_mod _) h0)
  | succ n => exact (dif_neg h0).trans ((dif_pos h31).trans rfl)

/-! ## The pipeline's proof data -/

/-- The proof data of the one pipeline on core `c`: the arrays as the region finds them; after the body at
    point `t` each input window's buffer at its block and the output's at the running sum; the invariant the
    scoped rest and the generator register, which the body does not touch; nothing owed. The gate and the up
    weights are two windows of ONE array, and so are the two biases: each of those four windows holds half of
    its array; every other window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt0 m c t.val t.isLt
  Φ _ := Pipeline.ΦA spec0 c
  q w := match w with
    | ⟨1, _⟩ => fullShare.left
    | ⟨2, _⟩ => fullShare.right
    | ⟨3, _⟩ => fullShare.left
    | ⟨4, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt0 m c t.val t.isLt := by dsimp only [dats]

/-- Each input window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a point of a hidden block after the first, the output window's current staging buffer holds what the
    body left at the point before: the point is not the first of the grid, the buffer is written back only
    after a last block (and the point before is no last block, this one being no first), and the window is
    live at every point and uncut. -/
theorem before0_7_kept (c : Dev nD) (t : Fin cfg0.N) (h0 : ¬t.val % 32 = 0) (d) :
    (dats m 0 c).before 7 t d = outsAt0 m c (t.val - 1) (Nat.lt_of_le_of_lt (Nat.sub_le _ _) t.isLt) := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    live7 (fun _ _ => rfl)]
  dsimp only [dats]

/-- Cases B and C both find the running sum of the point before. -/
theorem before0_7_B (c : Dev nD) (t : Fin cfg0.N) (h0 : ¬t.val % 32 = 0) (h31 : ¬t.val % 32 = 31) (d) :
    (dats m 0 c).before 7 t d = outsAt0 m c (t.val - 1) (Nat.lt_of_le_of_lt (Nat.sub_le _ _) t.isLt) :=
  before0_7_kept m c t h0 d
theorem before0_7_C (c : Dev nD) (t : Fin cfg0.N) (h0 : ¬t.val % 32 = 0) (h31 : t.val % 32 = 31) (d) :
    (dats m 0 c).before 7 t d = outsAt0 m c (t.val - 1) (Nat.lt_of_le_of_lt (Nat.sub_le _ _) t.isLt) :=
  before0_7_kept m c t h0 d

/-! ## The body obligation, at a generic point -/

/-- What the body is called with at point `t`: the invariant, the core owing nothing, and each window's
    current staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- And what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t)

set_option maxHeartbeats 1600000 in
/-- The body at any point. The inputs' buffers hold their blocks; the hidden block of the point says which
    of the three cases it is in; at a block after the first the output's buffer holds the running sum of the
    point before; so that case's run applies, and leaves the running sum of this point. The invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).leavesExact 7 t = owns (c : Thread nD τ) (ms0_7 t) fullShare ((dats m 0 c).after 7 t) from by
      unfold Dat.leavesExact; rw [live7 (grid0.coords t)],
    after0_7]
  have hN : t.val < 128 := lt_of_lt_of_eq t.isLt (show cfg0.N = 128 from N_0)
  by_cases h0 : t.val % 32 = 0
  · rw [outsAt0_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      ((hcond1 t).mpr h0) (fun h => (hcond2 t).mp h h0) (fun h => by have := (hcond3 t).mp h; omega)
      (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h31 : t.val % 32 = 31
    · rw [outsAt0_C m c t h0 h31]
      simp only [before0_7_C m c t h0 h31]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        (fun h => h0 ((hcond1 t).mp h)) ((hcond2 t).mpr h0) ((hcond3 t).mpr h31)
        (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [outsAt0_B m c t h0 h31]
      simp only [before0_7_B m c t h0 h31]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        (fun h => h0 ((hcond1 t).mp h)) ((hcond2 t).mpr h0) (fun h => h31 ((hcond3 t).mp h))
        (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Deal.lean ====
/-
  The kernel is handed the fused gate/up weight array through two windows (the gate columns and the up
  columns) and the fused bias row likewise, so six distinct buffers stand behind its eight windows. Each
  window that shares a buffer holds half of it: the whole buffers, at the contents the region finds, are
  dealt among the windows by splitting those two along the share.
-/
import proofs.«144755_j29515015258325_2_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA)
open Idealize.SL.BI (bigSepL bigSep_eq_bigSepL_of_eq)

/-- The share each window holds of its array: a half each for the two windows on the fused weights and
    for the two on the fused bias, the whole array for the others. -/
def qs : Fin 8 → PosShare TreeShare := fun w => match w with
  | ⟨1, _⟩ => fullShare.left | ⟨2, _⟩ => fullShare.right | ⟨3, _⟩ => fullShare.left | ⟨4, _⟩ => fullShare.right | _ => fullShare

variable (dats : (p : Fin 1) → (c : Dev nD) → Dat τ (Elt F) Unit ℕ (UR sig nD τ) ℕ (cfgs p) c)

/-- One window's array as the proof data holds it at entry — the whole buffer, at the window's share, at the
    region-entry contents. -/
theorem window_piece (c : Dev nD) (hA : ∀ w, (dats 0 c).A w = V m c (arrRef spec0 w)) (w : Fin 8) (q : PosShare TreeShare)
    (hs : (dats 0 c).share w = q) :
    ((cfg0.win w).arr.view.loc (c.tc : Thread nD τ) ↦[(cfg0.win w).arr.view.set]{(dats 0 c).share w} (dats 0 c).arrAt w 0 : sProp 𝕄)
      = ((c.tc : Thread nD τ).loc (arrRef spec0 w) ↦{q} V m c (arrRef spec0 w)) := by
  rw [hs, (arr_whole0 w).set_eq_univ, show (dats 0 c).arrAt w 0 = V m c (arrRef spec0 w) from hA w]

/-- The six buffers behind the windows' arrays, each whole at the region-entry contents, make the proof
    data's arrays at entry: the two shared buffers split in halves. -/
theorem arrays_deal (c : Dev nD) (hA : ∀ w, (dats 0 c).A w = V m c (arrRef spec0 w)) (hq : (dats 0 c).q = qs) :
    (arrBufs spec0 c (V m c) : sProp 𝕄) ⊢ (dats 0 c).arrays ((dats 0 c).arrAt · 0) := by
  have hb : (arrBufs spec0 c (V m c) : sProp 𝕄)
      = iprop((((c : Thread nD τ).loc main_v1) ↦{fullShare} V m c main_v1) ∗ (((c : Thread nD τ).loc main_v2) ↦{fullShare} V m c main_v2)
          ∗ (((c : Thread nD τ).loc main_v4) ↦{fullShare} V m c main_v4) ∗ (((c : Thread nD τ).loc main_v3) ↦{fullShare} V m c main_v3)
          ∗ (((c : Thread nD τ).loc main_v5) ↦{fullShare} V m c main_v5) ∗ (((c : Thread nD τ).loc main_v6) ↦{fullShare} V m c main_v6)) := by
    unfold arrBufs
    exact bigSep_eq_bigSepL_of_eq [main_v1, main_v2, main_v4, main_v3, main_v5, main_v6] (by decide) (by decide) _
  rw [hb]
  unfold Dat.arrays
  rw [bigSep_W0]
  have s0 : (dats 0 c).share 0 = fullShare := by unfold Dat.share; rw [hq]; rfl
  have s1 : (dats 0 c).share 1 = fullShare.left := by unfold Dat.share; rw [hq]; rfl
  have s2 : (dats 0 c).share 2 = fullShare.right := by unfold Dat.share; rw [hq]; rfl
  have s3 : (dats 0 c).share 3 = fullShare.left := by unfold Dat.share; rw [hq]; rfl
  have s4 : (dats 0 c).share 4 = fullShare.right := by unfold Dat.share; rw [hq]; rfl
  have s5 : (dats 0 c).share 5 = fullShare := by unfold Dat.share; rw [hq]; rfl
  have s6 : (dats 0 c).share 6 = fullShare := by unfold Dat.share; rw [hq]; rfl
  have s7 : (dats 0 c).share 7 = fullShare := by unfold Dat.share; rfl
  iintro ⟨H1, H2, H4, H3, H5, H6⟩
  ihave H2' := (pointsTo_share (PosShare.mem_left_op_right fullShare)).1 $$ H2
  icases H2' with ⟨H2a, H2b⟩
  ihave H4' := (pointsTo_share (PosShare.mem_left_op_right fullShare)).1 $$ H4
  icases H4' with ⟨H4a, H4b⟩
  ihave G0 := (Entails.of_eq (window_piece m dats c hA 0 _ s0).symm) $$ H1
  ihave G1 := (Entails.of_eq (window_piece m dats c hA 1 _ s1).symm) $$ H2a
  ihave G2 := (Entails.of_eq (window_piece m dats c hA 2 _ s2).symm) $$ H2b
  ihave G3 := (Entails.of_eq (window_piece m dats c hA 3 _ s3).symm) $$ H4a
  ihave G4 := (Entails.of_eq (window_piece m dats c hA 4 _ s4).symm) $$ H4b
  ihave G5 := (Entails.of_eq (window_piece m dats c hA 5 _ s5).symm) $$ H3
  ihave G6 := (Entails.of_eq (window_piece m dats c hA 6 _ s6).symm) $$ H5
  ihave G7 := (Entails.of_eq (window_piece m dats c hA 7 _ s7).symm) $$ H6
  isplitl [G0]; · iexact G0
  isplitl [G1]; · iexact G1
  isplitl [G2]; · iexact G2
  isplitl [G3]; · iexact G3
  isplitl [G4]; · iexact G4
  isplitl [G5]; · iexact G5
  isplitl [G6]; · iexact G6
  iexact G7

end Cert.KernelIdeal.Hand

end
-- ==== Proof.KI.Tail.lean ====
/-
  After the region @main reshapes the kernel's result [4096, 2048] back to [2, 2048, 2048]. The buffers at the
  region's exit are those at its entry, with the output array at what the write-backs left; the reshape reads
  that array and writes the result buffer, and touches nothing else.
-/
import proofs.«144755_j29515015258325_2_alg».proof.Proof.KI.Deal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA)
open Idealize.SL.BI (bigSepL bigSep_eq_bigSepL_of_eq)

variable (dats : (p : Fin 1) → (c : Dev nD) → Dat τ (Elt F) Unit ℕ (UR sig nD τ) ℕ (cfgs p) c)

/-- A core's buffers at the region's exit: as at its entry, the output array at what the write-backs left. -/
def Wexit (c : Dev nD) : Valuation τ sig (Elt F) :=
  Function.update (V0 m c) (Proc.devRef .tc main_v6) ((dats 0 c).arrAt 7 cfg0.N)

/-- A core's buffers when @main returns: the exit contents after the closing reshape. -/
def Vend (c : Dev nD) (b : Ref sig .tc) : Buf (Elt F) ((c : Thread nD τ).loc b) :=
  StableHlo.after hostOps1 (Wexit m dats c) (Proc.devRef .tc b)

/-- The reshape writes only the result buffer and the write-backs only the output array: every other buffer
    ends as the region found it. -/
theorem Vend_of_ne (c : Dev nD) (b : Ref sig .tc) (h7 : b ≠ main_v7) (h6 : b ≠ main_v6) : Vend m dats c b = V m c b := by
  unfold Vend
  rw [StableHlo.after_of_forall_not_mem _ _ fun op hop => ?_]
  · unfold Wexit
    rw [Function.update_of_ne (StableHlo.devRef_ne_of_ne h6)]
  · simp only [hostOps1, List.mem_cons, List.mem_nil_iff, or_false] at hop
    subst hop
    rw [StableHlo.reshape_writes, Finset.mem_singleton]
    exact StableHlo.devRef_ne_of_ne h7

/-- The output array is not written by the reshape. -/
theorem Vend_out (c : Dev nD) : Vend m dats c main_v6 = (dats 0 c).arrAt 7 cfg0.N := by
  unfold Vend
  rw [StableHlo.after_of_forall_not_mem _ _ fun op hop => ?_]
  · unfold Wexit
    rw [Function.update_self]
  · simp only [hostOps1, List.mem_cons, List.mem_nil_iff, or_false] at hop
    subst hop
    rw [StableHlo.reshape_writes, Finset.mem_singleton]
    exact StableHlo.devRef_ne_of_ne (by decide)

/-- The two buffers the closing reshape touches: it reads the output array and writes the result. -/
def tailSet : Finset (DevRef τ sig) := {Proc.devRef .tc main_v6, Proc.devRef .tc main_v7}

theorem held_tailSet (c : Dev nD) (W : Valuation τ sig (Elt F)) :
    (StableHlo.held (c.tc : Thread nD τ) tailSet W : sProp 𝕄)
      = iprop((((c : Thread nD τ).loc main_v6) ↦{fullShare} W (Proc.devRef .tc main_v6))
          ∗ (((c : Thread nD τ).loc main_v7) ↦{fullShare} W (Proc.devRef .tc main_v7))) := by
  unfold StableHlo.held tailSet
  exact bigSep_eq_bigSepL_of_eq [Proc.devRef .tc main_v6, Proc.devRef .tc main_v7] (by decide) (by decide) _

/-- At the region's exit the pair holds the output array's final contents and the result buffer as the region found it. -/
theorem held_exit (c : Dev nD) :
    (StableHlo.held (c.tc : Thread nD τ) tailSet (Wexit m dats c) : sProp 𝕄)
      = iprop((((c : Thread nD τ).loc main_v6) ↦{fullShare} (dats 0 c).arrAt 7 cfg0.N)
          ∗ (((c : Thread nD τ).loc main_v7) ↦{fullShare} V m c main_v7)) := by
  rw [held_tailSet]
  unfold Wexit
  rw [Function.update_self, Function.update_of_ne (StableHlo.devRef_ne_of_ne (by decide))]

/-- After the reshape it holds the same array and the reshaped result. -/
theorem held_end (c : Dev nD) :
    (StableHlo.held (c.tc : Thread nD τ) tailSet (StableHlo.after (List.flatten [hostOps1]) (Wexit m dats c)) : sProp 𝕄)
      = iprop((((c : Thread nD τ).loc main_v6) ↦{fullShare} (dats 0 c).arrAt 7 cfg0.N)
          ∗ (((c : Thread nD τ).loc main_v7) ↦{fullShare} Vend m dats c main_v7)) := by
  rw [held_tailSet, ← Vend_out m dats c]
  simp only [List.flatten_cons, List.flatten_nil, List.append_nil]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  rw [StableHlo.reshape_bufs]
  exact subset_rfl

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- The continuation after the region: holding the region boundary, the arrays at their final contents and the
    buffers that bypass the region as the region found them, the reshape runs, and hands back the arrays and the
    bypassing buffers at the contents @main returns with. -/
theorem tail_reshape (c : Dev nD) (Q' : PUnit → sProp 𝕄) :
    iprop((iprop((dats 0 c).arrays ((dats 0 c).arrAt · cfg0.N) ∗ unscopedRest spec0 c (Vend m dats c)) -∗ Q' ⟨⟩)
        ∗ boundary (c.tc : Thread nD τ) ∗ (dats 0 c).arrays ((dats 0 c).arrAt · cfg0.N) ∗ unscopedRest spec0 c (V m c))
      ⊢ wp frame (wpE (defs (F := F)) (Variants.lift Variants.none) (c.tc : Thread nD τ) none) Set.univ
          (Pipeline.chain [StableHlo.seq hostOps1]) Q' := by
  have s7 : (dats 0 c).share 7 = fullShare := by unfold Dat.share; rfl
  have p7 : ∀ X, ((cfg0.win 7).arr.view.loc (c.tc : Thread nD τ) ↦[(cfg0.win 7).arr.view.set]{(dats 0 c).share 7} X : sProp 𝕄)
      = ((c.tc : Thread nD τ).loc main_v6 ↦{fullShare} X) := fun X => by rw [s7, (arr_whole0 7).set_eq_univ]
  rw [unscopedRest0_eq, unscopedRest0_eq,
    Vend_of_ne m dats c main_arg0 (by decide) (by decide), Vend_of_ne m dats c main_arg1 (by decide) (by decide),
    Vend_of_ne m dats c main_arg2 (by decide) (by decide), Vend_of_ne m dats c main_arg3 (by decide) (by decide),
    Vend_of_ne m dats c main_arg4 (by decide) (by decide), Vend_of_ne m dats c main_v0 (by decide) (by decide)]
  unfold Dat.arrays
  rw [bigSep_W0]
  iintro ⟨Hk, Hb, ⟨A0, A1, A2, A3, A4, A5, A6, A7⟩, ⟨R0, R1, R2, R3, R4, R5, R7⟩⟩
  ihave A7' := (Entails.of_eq (p7 _)) $$ A7
  ihave Hh := (Entails.of_eq (held_exit m dats c).symm) $$ [A7' R7]
  · isplitl [A7']; · iexact A7'
    iexact R7
  rw [← List.append_nil ([StableHlo.seq hostOps1] : List (Prog (TpuEff nD τ sig (Elt F) (Pipeline.Sig Λ₀ (Fin 1) fun p => (pcfgs (F := F) p).Adm) .tc) PUnit))]
  iapply (Pipeline.wp_seqs_then (pcfgs (F := F)) defs₀ Variants.none c tailSet [] [hostOps1] tail_sub tail_fresh (Wexit m dats c)) $$ [Hb Hh]
  · isplitl [Hb]; · iexact Hb
    iexact Hh
  iintro ⟨Hb, Hh⟩
  ihave Hh' := (Entails.of_eq (held_end m dats c)) $$ Hh
  rw [Pipeline.chain_nil, wp_pure]
  imodintro
  iapply Hk
  icases Hh' with ⟨A7', R7⟩
  ihave A7 := (Entails.of_eq (p7 _).symm) $$ A7'
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  · isplitl [R0]; · iexact R0
    isplitl [R1]; · iexact R1
    isplitl [R2]; · iexact R2
    isplitl [R3]; · iexact R3
    isplitl [R4]; · iexact R4
    isplitl [R5]; · iexact R5
    iexact R7

end Cert.KernelIdeal.Hand

end
-- ==== Proof.KI.Launch.lean ====
/-
  The run of @main from the body's obligation. The launch hands each core its buffers; the six host lines
  before the region leave them at the entry contents; the buffers behind the windows are dealt among the eight
  windows (two pairs of windows share a buffer, half each); the pipeline runs the body at its 128 grid points;
  the reshape after the region runs from the exit contents. Every weakly fair execution ends, with each
  window's array at what the write-backs left and every other unscoped buffer at what the reshape leaves.
-/
import proofs.«144755_j29515015258325_2_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA restRefs)

variable (dats : (p : Fin 1) → (c : Dev nD) → Dat τ (Elt F) Unit ℕ (UR sig nD τ) ℕ (cfgs p) c)

set_option backward.isDefEq.respectTransparency.types false in
/-- For any proof data whose arrays are the region-entry contents, whose shares are the halves and wholes above,
    which owes nothing and whose invariant is the scoped rest and the generator register at both ends: from the
    body's obligation, every weakly fair execution of @main terminates without a fault, each window's array ends at
    the proof data's final contents, and every other unscoped buffer at the contents @main returns with. -/
theorem run_of
    (hbody : ∀ c, Pipeline.BodyObligationLoose (dats 0 c) defs₀ Variants.none () Set.univ)
    (hA : ∀ c w, (dats 0 c).A w = V m c (arrRef spec0 w))
    (hq : ∀ c, (dats 0 c).q = qs)
    (howed : ∀ c t, (dats 0 c).owed t = 0)
    (hin : ∀ c, (ΦA spec0 c : sProp 𝕄) ⊢ (dats 0 c).Φ 0)
    (hout : ∀ c, (dats 0 c).Φ (Fin.last cfg0.N) ⊢ (ΦA spec0 c : sProp 𝕄)) :
    θ_run defs (onTc (τ := τ) (main (F := F))) (s₀ m ρ) (Pipeline.FramePost cfgs dats 0 (Vend m dats)) := by
  classical
  exact Pipeline.θ_run_region_pf_tail (pcfgs (F := F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal m dats c (hA c) (hq c))
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (Vend m dats c))
    (hX := fun c => by
      rw [Pipeline.unscopedRestP_none]
      iintro ⟨HU, -, -, -, Hp, -⟩; imodintro
      isplitl [Hp]; · iexists _; iexact Hp
      iexact HU)
    (hin := fun c => (show _ ⊢ (ΦA spec0 c : sProp 𝕄) by
      unfold ΦA; iintro ⟨Hp, -, Hr⟩
      isplitl [Hr] <;> iassumption).trans (hin c))
    (hout := fun c => (hout c).trans (by
      rw [Pipeline.ownSems0_none]; unfold ΦA
      iintro ⟨Hr, Hp⟩
      isplitl [Hp]; · iexact Hp
      isplitr; · iempintro
      iexact Hr))
    (htail := fun c Q' => tail_reshape m dats c Q')
    (QY := fun c s => ∀ b ∈ restRefs sig spec0, s.mem ((c.tc : Thread nD τ).loc b) = Vend m dats c b)
    (hY := fun c s' => by
      iintro ⟨-, HU, HSI⟩
      unfold unscopedRest
      imodintro
      iapply (pointsTo_read_all (restRefs sig spec0) (fun b => (c.tc : Thread nD τ).loc b) (Vend m dats c) s')
      isplitl [HU] <;> iassumption)
    (hQ := fun s h c => ⟨(h c).1, (h c).2.2⟩)

end Cert.KernelIdeal.Hand

end
-- ==== Proof.KI.FrameOf.lean ====
/-
  What the run says of the buffers the claims name. The five argument arrays are written by no host line and by
  no window's write-back, so they end as launched; the result buffer ends at the reshape of the output array's
  final contents.
-/
import proofs.«144755_j29515015258325_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP scopedRest ΦA restRefs)

variable (dats : (p : Fin 1) → (c : Dev nD) → Dat τ (Elt F) Unit ℕ (UR sig nD τ) ℕ (cfgs p) c)

/-- The host lines before the region write only their own result buffers: a buffer that is none of them enters the
    region as launched. -/
theorem V_of_not_written (c : Dev nD) (b : Ref sig .tc) (h0 : b ≠ main_v0) (h1 : b ≠ main_v1) (h2 : b ≠ main_v2) (h3 : b ≠ main_v3)
    (h4 : b ≠ main_v4) (h5 : b ≠ main_v5) : V m c b = m ((c : Thread nD τ).loc b) := by
  dsimp only [V, V0]
  simp only [List.flatten_cons, List.flatten_nil, List.append_nil]
  rw [StableHlo.after_of_forall_not_mem _ _ fun op hop => ?_]
  simp only [hostOps0, List.mem_cons, List.mem_nil_iff, or_false] at hop
  rcases hop with rfl | rfl | rfl | rfl | rfl | rfl
  all_goals simp only [StableHlo.unary_writes, StableHlo.reshape_writes, Finset.mem_singleton]
  all_goals first
    | exact StableHlo.devRef_ne_of_ne h0 | exact StableHlo.devRef_ne_of_ne h1 | exact StableHlo.devRef_ne_of_ne h2
    | exact StableHlo.devRef_ne_of_ne h3 | exact StableHlo.devRef_ne_of_ne h4 | exact StableHlo.devRef_ne_of_ne h5

/-- An argument array ends as launched. -/
theorem arg_kept (c : Dev nD) (b : Ref sig .tc) (hr : b ∈ restRefs sig spec0) (h0 : b ≠ main_v0) (h1 : b ≠ main_v1) (h2 : b ≠ main_v2)
    (h3 : b ≠ main_v3) (h4 : b ≠ main_v4) (h5 : b ≠ main_v5) (h6 : b ≠ main_v6) (h7 : b ≠ main_v7)
    (r : PUnit × MemSt nD τ sig (Elt F)) (h : Pipeline.FramePost cfgs dats 0 (Vend m dats) r) :
    r.2.mem ((c.tc : Thread nD τ).loc b) = m ((c.tc : Thread nD τ).loc b) :=
  ((h c).2 b hr).trans ((Vend_of_ne m dats c b h7 h6).trans (V_of_not_written m c b h0 h1 h2 h3 h4 h5))

/-- The run's post read at the buffers the claims name: the five arguments as launched, and the result buffer at
    what the closing reshape makes of the output array's final contents. -/
theorem post_of (r : PUnit × MemSt nD τ sig (Elt F)) (h : Pipeline.FramePost cfgs dats 0 (Vend m dats) r) (c : Dev nD) :
    r.2.mem ((c.tc : Thread nD τ).loc main_v7) = Vend m dats c main_v7
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c).2 main_v7 (by decide),
   arg_kept m dats c main_arg0 (by decide) (by decide) (by decide) (by decide) (by decide) (by decide) (by decide) (by decide) (by decide) r h,
   arg_kept m dats c main_arg1 (by decide) (by decide) (by decide) (by decide) (by decide) (by decide) (by decide) (by decide) (by decide) r h,
   arg_kept m dats c main_arg2 (by decide) (by decide) (by decide) (by decide) (by decide) (by decide) (by decide) (by decide) (by decide) r h,
   arg_kept m dats c main_arg3 (by decide) (by decide) (by decide) (by decide) (by decide) (by decide) (by decide) (by decide) (by decide) r h,
   arg_kept m dats c main_arg4 (by decide) (by decide) (by decide) (by decide) (by decide) (by decide) (by decide) (by decide) (by decide) r h⟩

/-- The result buffer's final contents: the output array [4096, 2048] reshaped to [2, 2048, 2048]. -/
theorem Vend_result (c : Dev nD) :
    Vend m dats c main_v7 = shapeCast S2x2048x2048 ((dats 0 c).arrAt 7 cfg0.N) shapeCasts_S4096x2048_S2x2048x2048 := by
  unfold Vend
  dsimp only [hostOps1]
  after_results
  unfold Wexit
  rw [Function.update_self]
  rfl

end Cert.KernelIdeal.Hand

end
-- ==== Proof.KI.Frame.lean ====
/-
  The run of @main and the frame: the body's obligation at every grid point (the three control cases of the
  accumulation) discharges the launch, so every weakly fair execution terminates without a fault and the five
  argument arrays end as launched.
-/
import proofs.«144755_j29515015258325_2_alg».proof.Proof.KI.Body
import proofs.«144755_j29515015258325_2_alg».proof.Proof.KI.FrameOf

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; each window's array ends at what the write-backs left and
    every other unscoped buffer at what @main returns with. -/
theorem run_main : θ_run defs (onTc (τ := τ) (main (F := F))) (s₀ m ρ) (Pipeline.FramePost cfgs (dats m) 0 (Vend m (dats m))) :=
  run_of m ρ (dats m) (fun c => (body_obligation m c).loose) (A_eq m) (fun _ => rfl) (fun _ _ => rfl)
    (fun _ => .rfl) (fun _ => .rfl)

/-- The frame: @main runs to the end and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (post_of m (dats m) r h c).2) (run_main m ρ)

end Cert.KernelIdeal.Hand

end
-- ==== Proof.KI.OutGeom.lean ====
/-
  The output window's geometry. Its block at grid point t is the row tile t / 32: rows [1024 · (t/32), 1024 · (t/32) + 1024),
  all 2048 columns; it is written back at the last hidden block of each tile (t % 32 = 31). So every entry of the
  [4096, 2048] output lies in the block of exactly the write-back of its row tile.
-/
import proofs.«144755_j29515015258325_2_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's block index at a grid point: the row tile, and the one column block. -/
theorem out_index : ∀ t : Fin cfg0.N, win0_7.index t (0 : Fin 2) = t.val / 32 ∧ win0_7.index t (1 : Fin 2) = 0 :=
  (by decide +kernel : ∀ t : Fin grid0.N, win0_7.index t (0 : Fin 2) = t.val / 32 ∧ win0_7.index t (1 : Fin 2) = 0)

/-- An entry of the output array is in point `t`'s block iff each coordinate is in the block's range on its axis. -/
theorem mem_out_blk (t : Fin cfg0.N) (i : S4096x2048.Idx) :
    i ∈ ((cfg0.win 7).blk t).view.set ↔ ∀ a : Fin 2, win0_7.index t a * S1024x2048.size a ≤ (i a).val
      ∧ (i a).val < win0_7.index t a * S1024x2048.size a + S1024x2048.size a := by
  show i ∈ ((View.whole main_v6).slice (win0_7.rect t)).set ↔ _
  rw [View.set_slice_whole, Rect.mem_set_unit]
  exact Iff.rfl

/-- Every entry of the output array is in the block some write-back writes: that of its row tile's last point. -/
theorem out_cover (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  have hN : (i 0).val / 1024 * 32 + 31 < cfg0.N := by rw [show cfg0.N = 128 from N_0]; omega
  refine ⟨⟨(i 0).val / 1024 * 32 + 31, hN⟩, (flush0_7 _).mpr (by show ((i 0).val / 1024 * 32 + 31) % 32 = 31; omega), ?_⟩
  rw [mem_out_blk]
  obtain ⟨e0, e1⟩ := out_index ⟨(i 0).val / 1024 * 32 + 31, hN⟩
  have e0' : win0_7.index ⟨(i 0).val / 1024 * 32 + 31, hN⟩ (0 : Fin 2) = ((i 0).val / 1024 * 32 + 31) / 32 := e0
  intro a
  match a with
  | ⟨0, _⟩ =>
    show win0_7.index ⟨(i 0).val / 1024 * 32 + 31, hN⟩ (0 : Fin 2) * 1024 ≤ (i 0).val
      ∧ (i 0).val < win0_7.index ⟨(i 0).val / 1024 * 32 + 31, hN⟩ (0 : Fin 2) * 1024 + 1024
    omega
  | ⟨1, _⟩ =>
    show win0_7.index ⟨(i 0).val / 1024 * 32 + 31, hN⟩ (1 : Fin 2) * 2048 ≤ (i 1).val
      ∧ (i 1).val < win0_7.index ⟨(i 0).val / 1024 * 32 + 31, hN⟩ (1 : Fin 2) * 2048 + 2048
    omega

end Cert.KernelIdeal.Hand

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«144755_j29515015258325_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.KI.Payload.lean ====
/-
  The kernel body's arithmetic read at one index, over the extended reals.
  At a grid point the body holds a tile of 1024 activation rows and the weights of one block of 256 hidden units. Its
  first payload is the block's contribution to the output tile: at row r and output feature d,
    ∑ k < 256, ((g k · σ(g k)) · u k) · Wd[k, d],
  where g k and u k are the row's products with column k of the block's gate and up weights, each plus its bias entry, and
  σ is the logistic function. The changes of number format and the casts to the same shape are the identity on the
  extended reals, a product into the zero accumulator is the plain sum over the contracted axis, and a bias row laid
  along every row reads its one row. The second payload adds the contribution to the tile already there; the third adds
  the output bias row.
-/
import proofs.«144755_j29515015258325_2_alg».proof.Proof.Gen.KernelIdeal.Skeleton
import proofs.«144755_j29515015258325_2_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx
  Idealize.ShloMosaic.DenseBlock Idealize.ShloMosaic.DenseLayer

/-- Row `r` of the activation tile against column `k` of a weight block, plus the bias row's entry `k`. -/
def lin (x : Vec Ideal S1024x2048 .bf16) (w : Vec Ideal S2048x256 .bf16) (b : Vec Ideal S1x256 .f32)
    (r : Fin 1024) (k : Fin 256) : EReal :=
  (∑ kk : Fin 2048, x (ix2 r kk) * w (ix2 kk k)) + b (ix2 (0 : Fin 1) k)

/-- `lin` spelt out. -/
theorem lin_eq (x : Vec Ideal S1024x2048 .bf16) (w : Vec Ideal S2048x256 .bf16) (b : Vec Ideal S1x256 .f32)
    (r : Fin 1024) (k : Fin 256) :
    lin x w b r k = (∑ kk : Fin 2048, x (ix2 r kk) * w (ix2 kk k)) + b (ix2 (0 : Fin 1) k) := rfl

/-- The tile times a weight block into the zero accumulator, plus the bias row laid along every row, read at
    `(r, k)`: the casts to the same shape are the identity. -/
theorem lin_apply (x : FVec Ideal S1024x2048 .bf16) (w : FVec Ideal S2048x256 .bf16) (b : FVec Ideal S1x256 .f32)
    (hx : S1024x2048.ShapeCasts S1024x2048) (hw : S2048x256.ShapeCasts S2048x256) (hb : S1x256.ShapeCasts S1x256)
    (hbc : S1x256.Broadcasts S1024x256) (r : Fin 1024) (k : Fin 256) :
    addf (matmul dot_S1024x2048_S2048x256_S1024x256_1_0_0_1_n_n none (shapeCast S1024x2048 x hx) (shapeCast S2048x256 w hw)
        (constant (F := Ideal) S1024x256 .f32 0x00000000#32)) (broadcastTo S1024x256 (shapeCast S1x256 b hb) hbc) (ix2 r k)
      = lin x w b r k := by
  rw [shapeCast_self, shapeCast_self, shapeCast_self]
  exact affine_apply dot_S1024x2048_S2048x256_S1024x256_1_0_0_1_n_n_wf x w b hbc r k

/-- The gated block `(g · σ(g)) · u`, narrowed, times the block's down weights into the zero accumulator, read at
    `(r, d)`: the sum over the block's 256 hidden units. -/
theorem down_apply (g u : FVec Ideal S1024x256 .f32) (w : FVec Ideal S256x2048 .bf16) (hw : S256x2048.ShapeCasts S256x2048)
    (hlt : FTy.bits .bf16 < FTy.bits .f32) (r : Fin 1024) (d : Fin 2048) :
    matmul dot_S1024x256_S256x2048_S1024x2048_1_0_0_1_n_n none (truncf .bf16 (mulf (mulf g (logistic g)) u) hlt)
        (shapeCast S256x2048 w hw) (constant (F := Ideal) S1024x2048 .f32 0x00000000#32) (ix2 r d)
      = ∑ k : Fin 256, ((g (ix2 r k) * Ideal.logistic (g (ix2 r k))) * u (ix2 r k)) * w (ix2 k d) := by
  rw [shapeCast_self]
  exact matmul_zero_apply dot_S1024x256_S256x2048_S1024x2048_1_0_0_1_n_n_wf
    (truncf .bf16 (mulf (mulf g (logistic g)) u) hlt) w r d

/-- The first payload at `(r, d)`: the block's contribution to the output tile. -/
theorem pay1_apply (v0 : Vec Ideal S1024x2048 .bf16) (v2 : Vec Ideal S2048x256 .bf16) (v5 : Vec Ideal S1x256 .f32)
    (v9 : Vec Ideal S2048x256 .bf16) (v12 : Vec Ideal S1x256 .f32) (v20 : Vec Ideal S256x2048 .bf16)
    (r : Fin 1024) (d : Fin 2048) :
    k0_pay1 (F := Ideal) v0 v2 v5 v9 v12 v20 (ix2 r d)
      = ∑ k : Fin 256, ((lin v0 v2 v5 r k * Ideal.logistic (lin v0 v2 v5 r k)) * lin v0 v9 v12 r k) * v20 (ix2 k d) := by
  unfold Gen.k0_pay1
  rw [down_apply]
  refine Finset.sum_congr rfl fun k _ => ?_
  rw [lin_apply, lin_apply]

/-- The second payload at `(r, d)`: the tile already there plus the block's contribution. -/
theorem pay2_apply (v0 : Vec Ideal S1024x2048 .bf16) (v2 : Vec Ideal S2048x256 .bf16) (v5 : Vec Ideal S1x256 .f32)
    (v9 : Vec Ideal S2048x256 .bf16) (v12 : Vec Ideal S1x256 .f32) (v20 : Vec Ideal S256x2048 .bf16)
    (v32 : Vec Ideal S1024x2048 .f32) (r : Fin 1024) (d : Fin 2048) :
    k0_pay2 (F := Ideal) v0 v2 v5 v9 v12 v20 v32 (ix2 r d)
      = v32 (ix2 r d) + k0_pay1 (F := Ideal) v0 v2 v5 v9 v12 v20 (ix2 r d) := by
  unfold Gen.k0_pay2
  rw [shapeCast_self, addf_apply]

/-- The third payload at `(r, d)`: the tile already there plus the output bias row's entry `d`. -/
theorem pay3_apply (v32 : Vec Ideal S1024x2048 .f32) (v34 : Vec Ideal S1x2048 .f32) (r : Fin 1024) (d : Fin 2048) :
    k0_pay3 (F := Ideal) v32 v34 (ix2 r d) = v32 (ix2 r d) + v34 (ix2 (0 : Fin 1) d) := by
  unfold Gen.k0_pay3
  rw [shapeCast_self, shapeCast_self, addf_apply, broadcastTo_1b_ab_apply]

end Cert.KernelIdeal.Hand

end
-- ==== Proof.Spec.lean ====
/-
  The fused SwiGLU feed-forward block as ONE function of its five argument arrays, on the extended reals.
  For a token row (b, s) of the activations x and an output feature d:
    proj j    = (∑ k, x[b,s,k] · Wgu[k,j]) + bgu[j]                      (j < 16384: the gate columns, then the up columns)
    hidden j  = (proj j · σ(proj j)) · proj (8192 + j)                    (j < 8192; σ t = 1 / (1 + e^(−t)))
    out d     = (∑ j < 8192, hidden j · Wd[j,d]) + bd[d].
  Nothing here mentions a program: both programs' results are shown equal to `G`.
-/
import Idealize.ShloMosaic.PureOps.Ideal
import Idealize.ShloMosaic.Lib.ValueIdx

noncomputable section

open scoped BigOperators

namespace Cert.Spec

open Idealize.ShloMosaic Idealize.ShloMosaic.ValueIdx

/-- The activations [2, 2048, 2048], the fused gate/up weights [2048, 16384] and bias [16384], the down
    weights [8192, 2048] and bias [2048]. -/
abbrev SX : Shape := ⟨3, ![2, 2048, 2048]⟩
abbrev SWgu : Shape := ⟨2, ![2048, 16384]⟩
abbrev SBgu : Shape := ⟨1, ![16384]⟩
abbrev SWd : Shape := ⟨2, ![8192, 2048]⟩
abbrev SBd : Shape := ⟨1, ![2048]⟩

variable (x : SX.Idx → EReal) (wgu : SWgu.Idx → EReal) (bgu : SBgu.Idx → EReal) (wd : SWd.Idx → EReal) (bd : SBd.Idx → EReal)

/-- Column `j` of the first projection at the token row `(b, s)`: the row's dot product with the column, plus the bias. -/
def proj (b : Fin 2) (s : Fin 2048) (j : Fin 16384) : EReal :=
  (∑ k : Fin 2048, x (ix3 b s k) * wgu (ix2 k j)) + bgu (ix1 j)

/-- The gate column and the up column of hidden unit `j`: the two halves of the fused projection. -/
def gateCol (j : Fin 8192) : Fin 16384 := ⟨j.val, by omega⟩
def upCol (j : Fin 8192) : Fin 16384 := ⟨8192 + j.val, by omega⟩

/-- Hidden unit `j` at the token row: the gate through `t ↦ t · σ(t)`, times the up value. -/
def hidden (b : Fin 2) (s : Fin 2048) (j : Fin 8192) : EReal :=
  (proj x wgu bgu b s (gateCol j) * Ideal.logistic (proj x wgu bgu b s (gateCol j))) * proj x wgu bgu b s (upCol j)

/-- The block's output at `(b, s, d)`: the hidden row's dot product with column `d` of the down weights, plus the bias. -/
def out (b : Fin 2) (s : Fin 2048) (d : Fin 2048) : EReal :=
  (∑ j : Fin 8192, hidden x wgu bgu b s j * wd (ix2 j d)) + bd (ix1 d)

/-- The whole result array, index by index. -/
def G : SX.Idx → EReal := fun i => out x wgu bgu wd bd (i 0) (i 1) (i 2)

end Cert.Spec

end
-- ==== Proof.KI.Blocks.lean ====
/-
  The kernel's blocks as pieces of the argument arrays, and one grid point's contribution.
  When the region is entered the arrays its windows read are the arguments themselves: the activations
  [2, 2048, 2048] viewed as 4096 rows (row R is token row (R / 2048, R % 2048)), the two bias vectors viewed as one
  row each, and the narrowings of the number format, which are the identity on the extended reals. At grid point t,
  with row tile t / 32 and hidden block t % 32, the activation block is rows (t / 32) · 1024 + r; the gate and up blocks
  are columns (t % 32) · 256 + k and 8192 + (t % 32) · 256 + k of the fused weights and bias; the down block is rows
  (t % 32) · 256 + k of the down weights. So the first payload at the point, at row r and output feature d, is the sum
  over the block's 256 hidden units of the specification's hidden value times the down weight.
-/
import proofs.«144755_j29515015258325_2_alg».proof.Proof.KI.Entry
import proofs.«144755_j29515015258325_2_alg».proof.Proof.KI.Payload
import proofs.«144755_j29515015258325_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-! ## The region-entry arrays are the arguments -/

/-- The activations as the region finds them: the argument viewed as 4096 rows, narrowed. -/
theorem V_v1 : (V m c main_v1 : S4096x2048.Idx → EReal)
    = (truncf (F := Ideal) .bf16 (shapeCast S4096x2048 (m ((c : Thread nD τ).loc main_arg0) : S2x2048x2048.Idx → EReal)
        shapeCasts_S2x2048x2048_S4096x2048) bitsLt_bf16_f32 : S4096x2048.Idx → EReal) := by
  show StableHlo.after hostOps0 (fun b => m (c, b)) (Proc.devRef .tc main_v1) = _
  after_results
  rfl

/-- The fused gate/up weights as the region finds them: the argument, narrowed. -/
theorem V_v2 : (V m c main_v2 : S2048x16384.Idx → EReal)
    = (truncf (F := Ideal) .bf16 (m ((c : Thread nD τ).loc main_arg1) : S2048x16384.Idx → EReal) bitsLt_bf16_f32
        : S2048x16384.Idx → EReal) := by
  show StableHlo.after hostOps0 (fun b => m (c, b)) (Proc.devRef .tc main_v2) = _
  after_results

/-- The down weights as the region finds them: the argument, narrowed. -/
theorem V_v3 : (V m c main_v3 : S8192x2048.Idx → EReal)
    = (truncf (F := Ideal) .bf16 (m ((c : Thread nD τ).loc main_arg3) : S8192x2048.Idx → EReal) bitsLt_bf16_f32
        : S8192x2048.Idx → EReal) := by
  show StableHlo.after hostOps0 (fun b => m (c, b)) (Proc.devRef .tc main_v3) = _
  after_results

/-- The fused bias as the region finds it: the argument viewed as one row. -/
theorem V_v4 : (V m c main_v4 : S1x16384.Idx → EReal)
    = (shapeCast S1x16384 (m ((c : Thread nD τ).loc main_arg2) : S16384.Idx → EReal) shapeCasts_S16384_S1x16384
        : S1x16384.Idx → EReal) := by
  show StableHlo.after hostOps0 (fun b => m (c, b)) (Proc.devRef .tc main_v4) = _
  after_results
  rfl

/-- The output bias as the region finds it: the argument viewed as one row. -/
theorem V_v5 : (V m c main_v5 : S1x2048.Idx → EReal)
    = (shapeCast S1x2048 (m ((c : Thread nD τ).loc main_arg4) : S2048.Idx → EReal) shapeCasts_S2048_S1x2048
        : S1x2048.Idx → EReal) := by
  show StableHlo.after hostOps0 (fun b => m (c, b)) (Proc.devRef .tc main_v5) = _
  after_results
  rfl

/-- Row `R` of the 4096-row view is token row `(R / 2048, R % 2048)` of the activations. -/
theorem V_v1_apply (R : Fin 4096) (kk : Fin 2048) :
    (V m c main_v1 : S4096x2048.Idx → EReal) (ix2 R kk)
      = (m ((c : Thread nD τ).loc main_arg0) : S2x2048x2048.Idx → EReal)
          (ix3 (⟨R.val / 2048, by omega⟩ : Fin 2) (⟨R.val % 2048, by omega⟩ : Fin 2048) kk) := by
  rw [V_v1]
  show shapeCast S4096x2048 (m ((c : Thread nD τ).loc main_arg0) : S2x2048x2048.Idx → EReal)
      shapeCasts_S2x2048x2048_S4096x2048 (ix2 R kk) = _
  refine shapeCast_apply (s := S2x2048x2048) (t := S4096x2048) _ _ _ _ ?_
  rw [Shape.rowMajor_val_three, Shape.rowMajor_val_two]
  show (R.val / 2048 * 2048 + R.val % 2048) * 2048 + kk.val = R.val * 2048 + kk.val
  omega

/-- The fused weights read at an index. -/
theorem V_v2_apply (kk : Fin 2048) (j : Fin 16384) :
    (V m c main_v2 : S2048x16384.Idx → EReal) (ix2 kk j)
      = (m ((c : Thread nD τ).loc main_arg1) : S2048x16384.Idx → EReal) (ix2 kk j) := by
  rw [V_v2]; rfl

/-- The down weights read at an index. -/
theorem V_v3_apply (j : Fin 8192) (d : Fin 2048) :
    (V m c main_v3 : S8192x2048.Idx → EReal) (ix2 j d)
      = (m ((c : Thread nD τ).loc main_arg3) : S8192x2048.Idx → EReal) (ix2 j d) := by
  rw [V_v3]; rfl

/-- The one-row view of the fused bias read at column `j`. -/
theorem V_v4_apply (j : Fin 16384) :
    (V m c main_v4 : S1x16384.Idx → EReal) (ix2 (0 : Fin 1) j)
      = (m ((c : Thread nD τ).loc main_arg2) : S16384.Idx → EReal) (ix1 j) := by
  rw [V_v4]
  refine shapeCast_apply (s := S16384) (t := S1x16384) _ _ _ _ ?_
  rw [Shape.rowMajor_val_one, Shape.rowMajor_val_two]
  show j.val = 0 * 16384 + j.val
  omega

/-- The one-row view of the output bias read at column `d`. -/
theorem V_v5_apply (d : Fin 2048) :
    (V m c main_v5 : S1x2048.Idx → EReal) (ix2 (0 : Fin 1) d)
      = (m ((c : Thread nD τ).loc main_arg4) : S2048.Idx → EReal) (ix1 d) := by
  rw [V_v5]
  refine shapeCast_apply (s := S2048) (t := S1x2048) _ _ _ _ ?_
  rw [Shape.rowMajor_val_one, Shape.rowMajor_val_two]
  show d.val = 0 * 2048 + d.val
  omega

/-! ## The blocks at a grid point -/

/-- A grid point is one of 128. -/
theorem point_lt (t : Fin cfg0.N) : t.val < 128 := lt_of_lt_of_eq t.isLt N_0

/-- Row `r` of point `t`'s row tile, as a row of the 4096-row view of the activations. -/
abbrev tileRow (t : Fin cfg0.N) (r : Fin 1024) : Fin 4096 :=
  ⟨t.val / 32 * 1024 + r.val, by have := point_lt t; omega⟩

/-- Unit `k` of point `t`'s hidden block, as one of the 8192 hidden units. -/
abbrev blockUnit (t : Fin cfg0.N) (k : Fin 256) : Fin 8192 := ⟨t.val % 32 * 256 + k.val, by omega⟩

/-- The printed index maps over the grid: the activation block follows the row tile; the gate, up and down blocks follow
    the hidden block, the up blocks 32 blocks further along the fused columns; the output bias has one block. -/
theorem idx_facts : ∀ t : Fin cfg0.N,
    win0_0.index t (0 : Fin 2) = t.val / 32 ∧ win0_0.index t (1 : Fin 2) = 0
    ∧ win0_1.index t (0 : Fin 2) = 0 ∧ win0_1.index t (1 : Fin 2) = t.val % 32
    ∧ win0_2.index t (0 : Fin 2) = 0 ∧ win0_2.index t (1 : Fin 2) = 32 + t.val % 32
    ∧ win0_3.index t (0 : Fin 2) = 0 ∧ win0_3.index t (1 : Fin 2) = t.val % 32
    ∧ win0_4.index t (0 : Fin 2) = 0 ∧ win0_4.index t (1 : Fin 2) = 32 + t.val % 32
    ∧ win0_5.index t (0 : Fin 2) = t.val % 32 ∧ win0_5.index t (1 : Fin 2) = 0
    ∧ win0_6.index t (0 : Fin 2) = 0 ∧ win0_6.index t (1 : Fin 2) = 0 :=
  (by decide +kernel : ∀ t : Fin grid0.N, _)

/-- The activation block at point `t`: the rows of the point's row tile. -/
theorem iblk0_apply (t : Fin cfg0.N) (r : Fin 1024) (kk : Fin 2048) :
    iblk m c 0 t (ix2 r kk) = (V m c main_v1 : S4096x2048.Idx → EReal) (ix2 (tileRow t r) kk) := by
  obtain ⟨e0, e1, -⟩ := idx_facts t
  show (V m c main_v1 : S4096x2048.Idx → EReal) (((cfg0.win 0).blk t).view.emb (ix2 r kk)) = _
  refine congrArg _ (funext fun a => Fin.ext ?_)
  match a with
  | ⟨0, _⟩ => show win0_0.index t (0 : Fin 2) * 1024 + 1 * r.val = t.val / 32 * 1024 + r.val; omega
  | ⟨1, _⟩ => show win0_0.index t (1 : Fin 2) * 2048 + 1 * kk.val = kk.val; omega

/-- The gate weight block at point `t`: the gate columns of the point's hidden block. -/
theorem iblk1_apply (t : Fin cfg0.N) (kk : Fin 2048) (k : Fin 256) :
    iblk m c 1 t (ix2 kk k)
      = (V m c main_v2 : S2048x16384.Idx → EReal) (ix2 kk (Cert.Spec.gateCol (blockUnit t k))) := by
  obtain ⟨-, -, e0, e1, -⟩ := idx_facts t
  show (V m c main_v2 : S2048x16384.Idx → EReal) (((cfg0.win 1).blk t).view.emb (ix2 kk k)) = _
  refine congrArg _ (funext fun a => Fin.ext ?_)
  match a with
  | ⟨0, _⟩ => show win0_1.index t (0 : Fin 2) * 2048 + 1 * kk.val = kk.val; omega
  | ⟨1, _⟩ => show win0_1.index t (1 : Fin 2) * 256 + 1 * k.val = t.val % 32 * 256 + k.val; omega

/-- The up weight block at point `t`: the up columns of the point's hidden block. -/
theorem iblk2_apply (t : Fin cfg0.N) (kk : Fin 2048) (k : Fin 256) :
    iblk m c 2 t (ix2 kk k)
      = (V m c main_v2 : S2048x16384.Idx → EReal) (ix2 kk (Cert.Spec.upCol (blockUnit t k))) := by
  obtain ⟨-, -, -, -, e0, e1, -⟩ := idx_facts t
  show (V m c main_v2 : S2048x16384.Idx → EReal) (((cfg0.win 2).blk t).view.emb (ix2 kk k)) = _
  refine congrArg _ (funext fun a => Fin.ext ?_)
  match a with
  | ⟨0, _⟩ => show win0_2.index t (0 : Fin 2) * 2048 + 1 * kk.val = kk.val; omega
  | ⟨1, _⟩ => show win0_2.index t (1 : Fin 2) * 256 + 1 * k.val = 8192 + (t.val % 32 * 256 + k.val); omega

/-- The gate bias block at point `t`. -/
theorem iblk3_apply (t : Fin cfg0.N) (k : Fin 256) :
    iblk m c 3 t (ix2 (0 : Fin 1) k)
      = (V m c main_v4 : S1x16384.Idx → EReal) (ix2 (0 : Fin 1) (Cert.Spec.gateCol (blockUnit t k))) := by
  obtain ⟨-, -, -, -, -, -, e0, e1, -⟩ := idx_facts t
  show (V m c main_v4 : S1x16384.Idx → EReal) (((cfg0.win 3).blk t).view.emb (ix2 (0 : Fin 1) k)) = _
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * k.val = t.val % 32 * 256 + k.val; omega

/-- The up bias block at point `t`. -/
theorem iblk4_apply (t : Fin cfg0.N) (k : Fin 256) :
    iblk m c 4 t (ix2 (0 : Fin 1) k)
      = (V m c main_v4 : S1x16384.Idx → EReal) (ix2 (0 : Fin 1) (Cert.Spec.upCol (blockUnit t k))) := by
  obtain ⟨-, -, -, -, -, -, -, -, e0, e1, -⟩ := idx_facts t
  show (V m c main_v4 : S1x16384.Idx → EReal) (((cfg0.win 4).blk t).view.emb (ix2 (0 : Fin 1) k)) = _
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * k.val = 8192 + (t.val % 32 * 256 + k.val); omega

/-- The down weight block at point `t`: the rows of the point's hidden block. -/
theorem iblk5_apply (t : Fin cfg0.N) (k : Fin 256) (d : Fin 2048) :
    iblk m c 5 t (ix2 k d) = (V m c main_v3 : S8192x2048.Idx → EReal) (ix2 (blockUnit t k) d) := by
  obtain ⟨-, -, -, -, -, -, -, -, -, -, e0, e1, -⟩ := idx_facts t
  show (V m c main_v3 : S8192x2048.Idx → EReal) (((cfg0.win 5).blk t).view.emb (ix2 k d)) = _
  refine congrArg _ (funext fun a => Fin.ext ?_)
  match a with
  | ⟨0, _⟩ => show win0_5.index t (0 : Fin 2) * 256 + 1 * k.val = t.val % 32 * 256 + k.val; omega
  | ⟨1, _⟩ => show win0_5.index t (1 : Fin 2) * 2048 + 1 * d.val = d.val; omega

/-- The output bias block at every point: the whole row. -/
theorem iblk6_apply (t : Fin cfg0.N) (d : Fin 2048) :
    iblk m c 6 t (ix2 (0 : Fin 1) d) = (V m c main_v5 : S1x2048.Idx → EReal) (ix2 (0 : Fin 1) d) := by
  obtain ⟨-, -, -, -, -, -, -, -, -, -, -, -, e0, e1⟩ := idx_facts t
  show (V m c main_v5 : S1x2048.Idx → EReal) (((cfg0.win 6).blk t).view.emb (ix2 (0 : Fin 1) d)) = _
  refine congrArg _ (funext fun a => Fin.ext ?_)
  match a with
  | ⟨0, _⟩ => show win0_6.index t (0 : Fin 2) * 1 + 1 * 0 = 0; omega
  | ⟨1, _⟩ => show win0_6.index t (1 : Fin 2) * 2048 + 1 * d.val = d.val; omega

/-! ## One grid point's contribution -/

/-- The batch entry of the token row that row `r` of point `t`'s tile is. -/
abbrev tokB (t : Fin cfg0.N) (r : Fin 1024) : Fin 2 := ⟨(tileRow t r).val / 2048, by omega⟩
/-- Its position in the sequence. -/
abbrev tokS (t : Fin cfg0.N) (r : Fin 1024) : Fin 2048 := ⟨(tileRow t r).val % 2048, by omega⟩

/-- At point `t` the tile's row `r` against gate column `k` of the block, plus the gate bias entry, is the
    specification's projection of the row's token at the block's gate column. -/
theorem lin_gate (t : Fin cfg0.N) (r : Fin 1024) (k : Fin 256) :
    lin (iblk m c 0 t) (iblk m c 1 t) (iblk m c 3 t) r k
      = Cert.Spec.proj (m ((c : Thread nD τ).loc main_arg0) : S2x2048x2048.Idx → EReal)
          (m ((c : Thread nD τ).loc main_arg1) : S2048x16384.Idx → EReal)
          (m ((c : Thread nD τ).loc main_arg2) : S16384.Idx → EReal) (tokB t r) (tokS t r)
          (Cert.Spec.gateCol (blockUnit t k)) := by
  unfold lin Cert.Spec.proj
  congr 1
  · refine Finset.sum_congr rfl fun kk _ => ?_
    rw [iblk0_apply, iblk1_apply, V_v1_apply, V_v2_apply]
  · rw [iblk3_apply, V_v4_apply]

/-- The same for the up column `k` of the block and the up bias entry. -/
theorem lin_up (t : Fin cfg0.N) (r : Fin 1024) (k : Fin 256) :
    lin (iblk m c 0 t) (iblk m c 2 t) (iblk m c 4 t) r k
      = Cert.Spec.proj (m ((c : Thread nD τ).loc main_arg0) : S2x2048x2048.Idx → EReal)
          (m ((c : Thread nD τ).loc main_arg1) : S2048x16384.Idx → EReal)
          (m ((c : Thread nD τ).loc main_arg2) : S16384.Idx → EReal) (tokB t r) (tokS t r)
          (Cert.Spec.upCol (blockUnit t k)) := by
  unfold lin Cert.Spec.proj
  congr 1
  · refine Finset.sum_congr rfl fun kk _ => ?_
    rw [iblk0_apply, iblk2_apply, V_v1_apply, V_v2_apply]
  · rw [iblk4_apply, V_v4_apply]

/-- The first payload on point `t`'s blocks, at row `r` of the tile and output feature `d`: the sum over the point's
    256 hidden units of the specification's hidden value of the row's token times the down weight. -/
theorem contrib_apply (t : Fin cfg0.N) (r : Fin 1024) (d : Fin 2048) :
    k0_pay1 (F := Ideal) (iblk m c 0 t) (iblk m c 1 t) (iblk m c 3 t) (iblk m c 2 t) (iblk m c 4 t) (iblk m c 5 t) (ix2 r d)
      = ∑ k : Fin 256,
          Cert.Spec.hidden (m ((c : Thread nD τ).loc main_arg0) : S2x2048x2048.Idx → EReal)
              (m ((c : Thread nD τ).loc main_arg1) : S2048x16384.Idx → EReal)
              (m ((c : Thread nD τ).loc main_arg2) : S16384.Idx → EReal) (tokB t r) (tokS t r) (blockUnit t k)
            * (m ((c : Thread nD τ).loc main_arg3) : S8192x2048.Idx → EReal) (ix2 (blockUnit t k) d) := by
  refine (pay1_apply (iblk m c 0 t) (iblk m c 1 t) (iblk m c 3 t) (iblk m c 2 t) (iblk m c 4 t) (iblk m c 5 t) r d).trans ?_
  refine Finset.sum_congr rfl fun k _ => ?_
  rw [lin_gate, lin_up, iblk5_apply, V_v3_apply]
  rfl

end Cert.KernelIdeal.Hand

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.SpecFlat.lean ====
/-
  The kernel computes the block's output over the 4096 token rows R = b · 2048 + s laid out flat, [4096, 2048],
  and @main reshapes it to [2, 2048, 2048]. This module states the specification in the flat layout and shows
  that its reshape is the specification itself: a row-major reshape keeps the flat position, and row R is the
  token (R / 2048, R % 2048).
-/
import proofs.«144755_j29515015258325_2_alg».proof.Proof.Spec
import Idealize.ShloMosaic.Lib.Pipeline.Value
import Idealize.ShloMosaic.Lib.ValueLayout

noncomputable section

open scoped BigOperators

namespace Cert.Spec

open Idealize.ShloMosaic Idealize.ShloMosaic.ValueIdx

/-- The flat layout of the output: 4096 token rows of 2048 features. -/
abbrev SFlat : Shape := ⟨2, ![4096, 2048]⟩

/-- The batch and the position of the token in flat row `R`. -/
def rowB (R : Fin 4096) : Fin 2 := ⟨R.val / 2048, by have := R.isLt; omega⟩
def rowS (R : Fin 4096) : Fin 2048 := ⟨R.val % 2048, Nat.mod_lt _ (by norm_num)⟩

theorem rowB_mk (b : Fin 2) (s : Fin 2048) (h : b.val * 2048 + s.val < 4096) : rowB ⟨b.val * 2048 + s.val, h⟩ = b :=
  Fin.ext (by have := s.isLt; show (b.val * 2048 + s.val) / 2048 = b.val; omega)
theorem rowS_mk (b : Fin 2) (s : Fin 2048) (h : b.val * 2048 + s.val < 4096) : rowS ⟨b.val * 2048 + s.val, h⟩ = s :=
  Fin.ext (by have := s.isLt; show (b.val * 2048 + s.val) % 2048 = s.val; omega)

variable (x : SX.Idx → EReal) (wgu : SWgu.Idx → EReal) (bgu : SBgu.Idx → EReal) (wd : SWd.Idx → EReal) (bd : SBd.Idx → EReal)

/-- The block's output over the flat rows. -/
def Gflat : SFlat.Idx → EReal := fun j => out x wgu bgu wd bd (rowB (j 0)) (rowS (j 0)) (j 1)

/-- Reshaped to [2, 2048, 2048], the flat output is the specification. -/
theorem reshape_Gflat (h : SFlat.ShapeCasts SX) : shapeCast SX (Gflat x wgu bgu wd bd) h = G x wgu bgu wd bd := by
  funext i
  obtain ⟨b, s, d, rfl⟩ : ∃ (b : Fin 2) (s : Fin 2048) (d : Fin 2048), i = ix3 b s d := ⟨i 0, i 1, i 2, eq_ix3 i⟩
  have hR : b.val * 2048 + s.val < 4096 := by have := b.isLt; have := s.isLt; omega
  rw [shapeCast_apply (Gflat x wgu bgu wd bd) h (ix3 b s d) (ix2 (⟨b.val * 2048 + s.val, hR⟩ : Fin 4096) d)
    (by rw [Shape.rowMajor_val_two, Shape.rowMajor_val_three]; rfl)]
  show out x wgu bgu wd bd (rowB ⟨b.val * 2048 + s.val, hR⟩) (rowS ⟨b.val * 2048 + s.val, hR⟩) d = out x wgu bgu wd bd b s d
  rw [rowB_mk, rowS_mk]

end Cert.Spec

end
-- ==== Proof.KI.Accum.lean ====
/-
  The accumulation over one row tile.
  The 32 grid points of a row tile visit the 32 blocks of 256 hidden units in turn. The first stores its block's
  contribution to the output tile, each later one adds its own, and the last also adds the output bias row. So after the
  last point the tile holds, at row r and feature d, the sum over the 32 blocks of the sums over each block's 256 units
  of hidden value times down weight, plus the bias: the sum over all 8192 hidden units regrouped into consecutive blocks,
  which is the specification at the row's token. Only additions are regrouped; nothing is distributed and no finiteness
  is used.
-/
import proofs.«144755_j29515015258325_2_alg».proof.Proof.KI.Blocks
import proofs.«144755_j29515015258325_2_alg».proof.Proof.KI.Payload
import proofs.«144755_j29515015258325_2_alg».proof.Proof.LibBlockSum
import proofs.«144755_j29515015258325_2_alg».proof.Proof.SpecFlat

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

/-- A running total over the 32 steps of tile `T` — the first step stores its term, each later one adds its own, the
    last also adds `bias` — ends at the sum of the tile's 32 terms plus `bias`. -/
theorem fold_tile {M : Type*} [AddCommMonoid M] (c o : ℕ → M) (bias : M) (T : ℕ)
    (hA : o (T * 32) = c (T * 32))
    (hB : ∀ i, 0 < i → i < 31 → o (T * 32 + i) = o (T * 32 + i - 1) + c (T * 32 + i))
    (hC : o (T * 32 + 31) = (o (T * 32 + 30) + c (T * 32 + 31)) + bias) :
    o (T * 32 + 31) = (∑ i ∈ Finset.range 32, c (T * 32 + i)) + bias := by
  have inv : ∀ i, i < 31 → o (T * 32 + i) = ∑ i' ∈ Finset.range (i + 1), c (T * 32 + i') := by
    intro i
    induction i with
    | zero => intro _; rw [Finset.sum_range_one]; exact hA
    | succ i ih =>
      intro hi
      have h1 := hB (i + 1) (Nat.succ_pos i) hi
      have e : T * 32 + (i + 1) - 1 = T * 32 + i := by omega
      rw [e] at h1
      rw [h1, ih (by omega), Finset.sum_range_succ _ (i + 1)]
  have hs := Finset.sum_range_succ (fun i => c (T * 32 + i)) 31
  rw [hC, inv 30 (by norm_num)]
  exact congrArg (· + bias) hs.symm

variable (m : (ℓ : Loc nD τ sig) → Buf (Elt Ideal) ℓ) (c : Dev nD)

/-- Hidden unit `j` of the token in flat row `R`, times its down weight to feature `d`. -/
def term (R : Fin 4096) (d : Fin 2048) (j : Fin 8192) : EReal :=
  Cert.Spec.hidden (m ((c : Thread nD τ).loc main_arg0) : S2x2048x2048.Idx → EReal) (m ((c : Thread nD τ).loc main_arg1) : S2048x16384.Idx → EReal) (m ((c : Thread nD τ).loc main_arg2) : S16384.Idx → EReal) (Cert.Spec.rowB R) (Cert.Spec.rowS R) j * (m ((c : Thread nD τ).loc main_arg3) : S8192x2048.Idx → EReal) (ix2 j d)

/-- The sum of those terms over block `n % 32` of 256 hidden units. -/
def blockSum (R : Fin 4096) (d : Fin 2048) (n : ℕ) : EReal :=
  ∑ k : Fin 256, term m c R d ⟨(n % 32) * 256 + k.val, by omega⟩

/-- The block's sum depends on the block number only. -/
theorem blockSum_congr (R : Fin 4096) (d : Fin 2048) {n n' : ℕ} (h : n % 32 = n' % 32) :
    blockSum m c R d n = blockSum m c R d n' := by
  unfold blockSum
  refine Finset.sum_congr rfl fun k _ => congrArg (term m c R d) (Fin.ext ?_)
  show (n % 32) * 256 + k.val = (n' % 32) * 256 + k.val
  rw [h]

/-- The specification at flat row `R`: the 32 blocks' sums, plus the bias. -/
theorem Gflat_blocks (R : Fin 4096) (d : Fin 2048) :
    Cert.Spec.Gflat (m ((c : Thread nD τ).loc main_arg0) : S2x2048x2048.Idx → EReal) (m ((c : Thread nD τ).loc main_arg1) : S2048x16384.Idx → EReal) (m ((c : Thread nD τ).loc main_arg2) : S16384.Idx → EReal) (m ((c : Thread nD τ).loc main_arg3) : S8192x2048.Idx → EReal) (m ((c : Thread nD τ).loc main_arg4) : S2048.Idx → EReal) (ix2 R d) = (∑ i ∈ Finset.range 32, blockSum m c R d i) + (m ((c : Thread nD τ).loc main_arg4) : S2048.Idx → EReal) (ix1 d) := by
  show (∑ j : Fin 8192, term m c R d j) + (m ((c : Thread nD τ).loc main_arg4) : S2048.Idx → EReal) (ix1 d) = _
  rw [Cert.LibBlockSum.sum_blocks (term m c R d)]
  rfl

/-- The contribution of a point of `t`'s row tile, at row `r` of the tile, is its block's sum for that row. -/
theorem contrib_eq_blockSum (t t' : Fin cfg0.N) (h : t'.val / 32 = t.val / 32) (r : Fin 1024) (d : Fin 2048) :
    (∑ k : Fin 256, Cert.Spec.hidden (m ((c : Thread nD τ).loc main_arg0) : S2x2048x2048.Idx → EReal) (m ((c : Thread nD τ).loc main_arg1) : S2048x16384.Idx → EReal) (m ((c : Thread nD τ).loc main_arg2) : S16384.Idx → EReal) (tokB t' r) (tokS t' r) (blockUnit t' k) * (m ((c : Thread nD τ).loc main_arg3) : S8192x2048.Idx → EReal) (ix2 (blockUnit t' k) d))
      = blockSum m c (tileRow t r) d t'.val := by
  have hrow : tileRow t' r = tileRow t r :=
    Fin.ext (by show t'.val / 32 * 1024 + r.val = t.val / 32 * 1024 + r.val; rw [h])
  show (∑ k : Fin 256, term m c (tileRow t' r) d (blockUnit t' k)) = _
  rw [hrow]
  rfl

/-- The output tile's entry `(r, d)` after point `n`, as a function of every natural `n`. -/
def outAt (outs : (n : ℕ) → n < cfg0.N → Vec Ideal S1024x2048 .f32) (r : Fin 1024) (d : Fin 2048) (n : ℕ) : EReal :=
  if h : n < cfg0.N then outs n h (ix2 r d) else 0

theorem outAt_eq (outs : (n : ℕ) → n < cfg0.N → Vec Ideal S1024x2048 .f32) (r : Fin 1024) (d : Fin 2048) (n : ℕ)
    (h : n < cfg0.N) : outAt outs r d n = outs n h (ix2 r d) := dif_pos h

/-- After the last point of a row tile the output tile holds the specification at the tile's rows. -/
theorem tile_accum
    (outs : (n : ℕ) → n < cfg0.N → Vec Ideal S1024x2048 .f32)
    (hA : ∀ (t : Fin cfg0.N), t.val % 32 = 0 → outs t.val t.isLt = k0_pay1 (F := Ideal) (iblk m c 0 t) (iblk m c 1 t) (iblk m c 3 t) (iblk m c 2 t) (iblk m c 4 t) (iblk m c 5 t))
    (hB : ∀ (t : Fin cfg0.N), t.val % 32 ≠ 0 → t.val % 32 ≠ 31 → outs t.val t.isLt = k0_pay2 (F := Ideal) (iblk m c 0 t) (iblk m c 1 t) (iblk m c 3 t) (iblk m c 2 t) (iblk m c 4 t) (iblk m c 5 t) (outs (t.val - 1) (Nat.lt_of_le_of_lt (Nat.sub_le _ _) t.isLt)))
    (hC : ∀ (t : Fin cfg0.N), t.val % 32 = 31 → outs t.val t.isLt = k0_pay3 (F := Ideal) (k0_pay2 (F := Ideal) (iblk m c 0 t) (iblk m c 1 t) (iblk m c 3 t) (iblk m c 2 t) (iblk m c 4 t) (iblk m c 5 t) (outs (t.val - 1) (Nat.lt_of_le_of_lt (Nat.sub_le _ _) t.isLt))) (iblk m c 6 t))
    (t : Fin cfg0.N) (h31 : t.val % 32 = 31) (r : Fin 1024) (d : Fin 2048) :
    outs t.val t.isLt (ix2 r d) = Cert.Spec.Gflat (m ((c : Thread nD τ).loc main_arg0) : S2x2048x2048.Idx → EReal) (m ((c : Thread nD τ).loc main_arg1) : S2048x16384.Idx → EReal) (m ((c : Thread nD τ).loc main_arg2) : S16384.Idx → EReal) (m ((c : Thread nD τ).loc main_arg3) : S8192x2048.Idx → EReal) (m ((c : Thread nD τ).loc main_arg4) : S2048.Idx → EReal) (ix2 (tileRow t r) d) := by
  have htl := point_lt t
  have hN : cfg0.N = 128 := N_0
  obtain ⟨T, hT⟩ : ∃ T, t.val = T * 32 + 31 := ⟨t.val / 32, by omega⟩
  -- the three kinds of point, at the entry (r, d), for the points of this tile
  have PA : ∀ t' : Fin cfg0.N, t'.val % 32 = 0 → t'.val / 32 = t.val / 32 →
      outAt outs r d t'.val = blockSum m c (tileRow t r) d t'.val := by
    intro t' h0 hq
    rw [outAt_eq outs r d t'.val t'.isLt, hA t' h0, contrib_apply]
    exact contrib_eq_blockSum m c t t' hq r d
  have PB : ∀ t' : Fin cfg0.N, t'.val % 32 ≠ 0 → t'.val % 32 ≠ 31 → t'.val / 32 = t.val / 32 →
      outAt outs r d t'.val = outAt outs r d (t'.val - 1) + blockSum m c (tileRow t r) d t'.val := by
    intro t' h0 h1 hq
    rw [outAt_eq outs r d t'.val t'.isLt, congrFun (hB t' h0 h1) (ix2 r d)]
    refine (pay2_apply (iblk m c 0 t') (iblk m c 1 t') (iblk m c 3 t') (iblk m c 2 t') (iblk m c 4 t') (iblk m c 5 t')
      (outs (t'.val - 1) (Nat.lt_of_le_of_lt (Nat.sub_le _ _) t'.isLt)) r d).trans ?_
    rw [contrib_apply, contrib_eq_blockSum m c t t' hq r d,
      outAt_eq outs r d (t'.val - 1) (Nat.lt_of_le_of_lt (Nat.sub_le _ _) t'.isLt)]
  have PC : ∀ t' : Fin cfg0.N, t'.val % 32 = 31 → t'.val / 32 = t.val / 32 →
      outAt outs r d t'.val
        = (outAt outs r d (t'.val - 1) + blockSum m c (tileRow t r) d t'.val) + (m ((c : Thread nD τ).loc main_arg4) : S2048.Idx → EReal) (ix1 d) := by
    intro t' h1 hq
    rw [outAt_eq outs r d t'.val t'.isLt, congrFun (hC t' h1) (ix2 r d)]
    refine (pay3_apply _ (iblk m c 6 t') r d).trans ?_
    rw [iblk6_apply, V_v5_apply]
    refine congrArg (· + (m ((c : Thread nD τ).loc main_arg4) : S2048.Idx → EReal) (ix1 d)) ?_
    refine (pay2_apply (iblk m c 0 t') (iblk m c 1 t') (iblk m c 3 t') (iblk m c 2 t') (iblk m c 4 t') (iblk m c 5 t')
      (outs (t'.val - 1) (Nat.lt_of_le_of_lt (Nat.sub_le _ _) t'.isLt)) r d).trans ?_
    rw [contrib_apply, contrib_eq_blockSum m c t t' hq r d,
      outAt_eq outs r d (t'.val - 1) (Nat.lt_of_le_of_lt (Nat.sub_le _ _) t'.isLt)]
  -- the tile's running total
  have hA' : outAt outs r d (T * 32) = blockSum m c (tileRow t r) d (T * 32) :=
    PA ⟨T * 32, lt_of_lt_of_eq (by omega : T * 32 < 128) hN.symm⟩ (by show T * 32 % 32 = 0; omega)
      (by show T * 32 / 32 = t.val / 32; omega)
  have hB' : ∀ i, 0 < i → i < 31 →
      outAt outs r d (T * 32 + i) = outAt outs r d (T * 32 + i - 1) + blockSum m c (tileRow t r) d (T * 32 + i) :=
    fun i h0 h1 => PB ⟨T * 32 + i, lt_of_lt_of_eq (by omega : T * 32 + i < 128) hN.symm⟩
      (by show (T * 32 + i) % 32 ≠ 0; omega) (by show (T * 32 + i) % 32 ≠ 31; omega)
      (by show (T * 32 + i) / 32 = t.val / 32; omega)
  have hC' : outAt outs r d (T * 32 + 31)
      = (outAt outs r d (T * 32 + 30) + blockSum m c (tileRow t r) d (T * 32 + 31)) + (m ((c : Thread nD τ).loc main_arg4) : S2048.Idx → EReal) (ix1 d) := by
    have hc := PC t h31 rfl
    have e1 : t.val - 1 = T * 32 + 30 := by omega
    rw [e1] at hc
    rw [← hT]
    exact hc
  have key := fold_tile (blockSum m c (tileRow t r) d) (outAt outs r d) ((m ((c : Thread nD τ).loc main_arg4) : S2048.Idx → EReal) (ix1 d)) T hA' hB' hC'
  rw [← outAt_eq outs r d t.val t.isLt, Gflat_blocks]
  calc outAt outs r d t.val = outAt outs r d (T * 32 + 31) := congrArg (outAt outs r d) hT
    _ = (∑ i ∈ Finset.range 32, blockSum m c (tileRow t r) d (T * 32 + i)) + (m ((c : Thread nD τ).loc main_arg4) : S2048.Idx → EReal) (ix1 d) := key
    _ = (∑ i ∈ Finset.range 32, blockSum m c (tileRow t r) d i) + (m ((c : Thread nD τ).loc main_arg4) : S2048.Idx → EReal) (ix1 d) := by
        rw [Finset.sum_congr rfl fun i _ => blockSum_congr m c (tileRow t r) d (by omega : (T * 32 + i) % 32 = i % 32)]

end Cert.KernelIdeal.Hand

end
-- ==== Proof.KI.Value.lean ====
/-
  The kernel's result at the ideal instance. At the last hidden block of a row tile the resident output block holds,
  row by row, the sum of the 32 blocks' contributions plus the bias: the flat specification's rows of that tile. That is
  what the write-back writes, the write-backs of the four tiles cover the output array, and the closing reshape of the
  flat specification is the specification.
-/
import proofs.«144755_j29515015258325_2_alg».proof.Proof.KI.Frame
import proofs.«144755_j29515015258325_2_alg».proof.Proof.KI.OutGeom
import proofs.«144755_j29515015258325_2_alg».proof.Proof.KI.Accum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The flat specification of the five argument arrays as launched on core `c`. -/
abbrev flatSpec (c : Dev nD) : S4096x2048.Idx → EReal :=
  Cert.Spec.Gflat (m ((c : Thread nD τ).loc main_arg0)) (m ((c : Thread nD τ).loc main_arg1)) (m ((c : Thread nD τ).loc main_arg2))
    (m ((c : Thread nD τ).loc main_arg3)) (m ((c : Thread nD τ).loc main_arg4))

/-- What a write-back writes is its tile's block of the flat specification. -/
theorem flushed_out (c : Dev nD) (t : Fin cfg0.N) (hf : (cfg0.win 7).flush t = true) :
    (dats m 0 c).flushed 7 t = ((cfg0.win 7).blk t).view.read (Elt Ideal) (flatSpec m c) := by
  have h31 : t.val % 32 = 31 := (flush0_7 t).mp hf
  show (cfg0.win 7).cut (grid0.coords t) ((dats m 0 c).after 7 t) = _
  rw [after0_7]
  funext j
  obtain ⟨r, d, rfl⟩ : ∃ (r : Fin 1024) (d : Fin 2048), j = ix2 r d := ⟨j 0, j 1, eq_ix2 j⟩
  show outsAt0 m c t.val t.isLt (ix2 r d) = flatSpec m c (((cfg0.win 7).blk t).view.emb (ix2 r d))
  rw [tile_accum m c (outsAt0 m c) (fun t h => outsAt0_A m c t h) (fun t h h' => outsAt0_B m c t h h') (fun t h => outsAt0_C m c t (by omega) h) t h31 r d]
  refine congrArg (flatSpec m c) ?_
  obtain ⟨e0, e1⟩ := out_index t
  funext a; apply Fin.ext
  match a with
  | ⟨0, _⟩ => show t.val / 32 * 1024 + r.val = win0_7.index t (0 : Fin 2) * 1024 + 1 * r.val; omega
  | ⟨1, _⟩ => show d.val = win0_7.index t (1 : Fin 2) * 2048 + 1 * d.val; omega

/-- The output array after the run is the flat specification. -/
theorem final_out (c : Dev nD) : (dats m 0 c).arrAt 7 cfg0.N = flatSpec m c :=
  (dats m 0 c).arrAt_eq_of_cover 7 (flatSpec m c) (fun t hf => flushed_out m c t hf) out_cover

/-- The kernel's run at the ideal instance: the result buffer ends at the specification of the argument arrays, and
    the arguments end as launched. -/
theorem kernel_run : θ_run (defs (F := Ideal)) (onTc (τ := τ) (main (F := Ideal))) ⟨m, fun _ => 0, ρ⟩ (fun r => ∀ c : Dev nD,
      r.2.mem ((c.tc : Thread nD τ).loc main_v7)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(post_of m (dats m) r h c).1.trans ((Vend_result m (dats m) c).trans (by
          rw [final_out m c]
          exact Cert.Spec.reshape_Gflat _ _ _ _ _ shapeCasts_S4096x2048_S2x2048x2048)),
        (post_of m (dats m) r h c).2⟩)
    (run_main m ρ)

end Cert.KernelIdeal.Hand

end
-- ==== Proof.RefValue.lean ====
/-
  The reference program's result, at the ideal instance, is the specification `Cert.Spec.G` of its five argument arrays.
  Read at an index (b, s, d) the reference computes
    (∑ j < 8192, (gate j · (1 / (1 + e^(−gate j))) · up j) · Wd[j,d]) + bd[d],
  where gate j and up j are columns j and 8192 + j of the fused projection x·Wgu + bgu at the row (b, s):
  the two slices of the projection are its two halves of columns, the quotient 1 / (1 + e^(−t)) with the constant 1
  is the logistic function of the extended reals by that function's definition, and the rest is the specification verbatim.
-/
import proofs.«144755_j29515015258325_2_alg».proof.Proof.Spec
import proofs.«144755_j29515015258325_2_alg».proof.Proof.Gen.ReferenceIdeal.Read

noncomputable section

open scoped BigOperators

open Idealize.ShloMosaic Idealize.ShloMosaic.TcCoe Idealize.SL.Sem

namespace Cert.RefValue

open Cert.ReferenceIdeal Cert.ReferenceIdeal.Gen Cert.ReferenceIdeal.Read Idealize.ShloMosaic.ValueIdx

/-- The single-precision word of 1.0 denotes the real number 1. -/
theorem one_f32 : Ideal.ofBits .f32 0x3F800000#32 = 1 := IdealRules.sign_bit.ideal_onePat .f32

variable (x0 : (⟨S2x2048x2048, .f32⟩ : BufTy).Contents (Elt Ideal)) (x1 : (⟨S2048x16384, .f32⟩ : BufTy).Contents (Elt Ideal))
  (x2 : (⟨S16384, .f32⟩ : BufTy).Contents (Elt Ideal)) (x3 : (⟨S8192x2048, .f32⟩ : BufTy).Contents (Elt Ideal))
  (x4 : (⟨S2048, .f32⟩ : BufTy).Contents (Elt Ideal))

/-- The fused projection plus its bias, read at row (b, s) and column j, is the specification's `proj`. -/
theorem proj_at (b : Fin 2) (s : Fin 2048) (j : Fin 16384) :
    val_main_v3 (F := Ideal) x0 x1 x2 (ix3 b s j) = Cert.Spec.proj x0 x1 x2 b s j := by
  rw [val_main_v3_apply, val_main_v0_apply, val_main_v2_apply, val_main_v1_apply]
  have el : ∀ k : Fin 2048, lidx_main_v0 (ix3 b s j) k = ix3 b s k := fun k =>
    funext fun a => by match a with | ⟨0, _⟩ => rfl | ⟨1, _⟩ => rfl | ⟨2, _⟩ => rfl
  have er : ∀ k : Fin 2048, ridx_main_v0 (ix3 b s j) k = ix2 k j := fun k =>
    funext fun a => by match a with | ⟨0, _⟩ => rfl | ⟨1, _⟩ => rfl
  have eb : idx_main_v1 (idx_main_v2 (ix3 b s j)) = ix1 j :=
    funext fun a => by match a with | ⟨0, _⟩ => rfl
  simp only [el, er, eb, Ideal.addf_def]
  rfl

/-- The first slice of the projection holds the gate columns. -/
theorem gate_at (b : Fin 2) (s : Fin 2048) (j : Fin 8192) :
    val_main_v4 (F := Ideal) x0 x1 x2 (ix3 b s j) = Cert.Spec.proj x0 x1 x2 b s (Cert.Spec.gateCol j) := by
  rw [val_main_v4_apply]
  have e : idx_main_v4 (ix3 b s j) = ix3 b s (Cert.Spec.gateCol j) :=
    funext fun a => by match a with | ⟨0, _⟩ => rfl | ⟨1, _⟩ => rfl | ⟨2, _⟩ => rfl
  rw [e, proj_at]

/-- The second slice of the projection holds the up columns. -/
theorem up_at (b : Fin 2) (s : Fin 2048) (j : Fin 8192) :
    val_main_v5 (F := Ideal) x0 x1 x2 (ix3 b s j) = Cert.Spec.proj x0 x1 x2 b s (Cert.Spec.upCol j) := by
  rw [val_main_v5_apply]
  have e : idx_main_v5 (ix3 b s j) = ix3 b s (Cert.Spec.upCol j) :=
    funext fun a => by match a with | ⟨0, _⟩ => rfl | ⟨1, _⟩ => rfl | ⟨2, _⟩ => rfl
  rw [e, proj_at]

/-- The gate through t ↦ t · (1 / (1 + e^(−t))), times the up value, is the specification's hidden unit. -/
theorem hidden_at (b : Fin 2) (s : Fin 2048) (j : Fin 8192) :
    val_main_v7 (F := Ideal) x0 x1 x2 (ix3 b s j) = Cert.Spec.hidden x0 x1 x2 b s j := by
  rw [val_main_v7_apply, val_main_v6_apply, val_main_call0_v5_apply, val_main_call0_v4_apply, val_main_call0_cst_0_apply,
    val_main_call0_v3_apply, val_main_call0_v2_apply, val_main_call0_cst_apply, val_main_call0_v1_apply,
    val_main_call0_v0_apply, gate_at, up_at]
  simp only [Ideal.mulf_def, Ideal.addf_def, Ideal.hostDivf_def, Ideal.hostUnary_exp_def, Ideal.hostNegf_def, Ideal.negf_def,
    Ideal.ofBits_def, one_f32]
  rfl

/-- The reference's result array is the specification, index by index. -/
theorem result_eq : val_main_v11 (F := Ideal) x0 x1 x2 x3 x4 = Cert.Spec.G x0 x1 x2 x3 x4 := by
  funext i
  obtain ⟨b, s, d, rfl⟩ : ∃ (b : Fin 2) (s : Fin 2048) (d : Fin 2048), i = ix3 b s d := ⟨i 0, i 1, i 2, eq_ix3 i⟩
  rw [val_main_v11_apply, val_main_v8_apply, val_main_v10_apply, val_main_v9_apply]
  have el : ∀ k : Fin 8192, lidx_main_v8 (ix3 b s d) k = ix3 b s k := fun k =>
    funext fun a => by match a with | ⟨0, _⟩ => rfl | ⟨1, _⟩ => rfl | ⟨2, _⟩ => rfl
  have er : ∀ k : Fin 8192, ridx_main_v8 (ix3 b s d) k = ix2 k d := fun k =>
    funext fun a => by match a with | ⟨0, _⟩ => rfl | ⟨1, _⟩ => rfl
  have eb : idx_main_v9 (idx_main_v10 (ix3 b s d)) = ix1 d :=
    funext fun a => by match a with | ⟨0, _⟩ => rfl
  simp only [el, er, eb, hidden_at, Ideal.addf_def]
  rfl

/-- Every weakly fair execution of the reference program from any memory with zero counters terminates with its result
    buffer at the specification of the arguments' launch contents, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v11)
          = Cert.Spec.G (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono
    (fun _ h c => ⟨(h c).1.trans ((val_main_v11_eq _ _ _ _ _).trans (result_eq _ _ _ _ _)), (h c).2⟩)
    (Cert.ReferenceIdeal.Value.run (F := Ideal) m' ρ')

end Cert.RefValue

end
-- ==== Proof.lean ====
/-
  The claims of the fused SwiGLU feed-forward kernel against its reference.

  The kernel walks a grid of 4 row tiles × 32 hidden blocks. At a point it forms, for its 1024 token rows and the
  256 hidden units of the block, the gate and up projections (a dot product with the block's columns plus the bias),
  the hidden value  gate · σ(gate) · up  with σ t = 1 / (1 + e^(−t)), and the block's contribution to the down
  projection; the resident output block is set to the contribution at the first block, increased by it at the later
  ones, and the output bias is added once at the last. The reference computes the two projections whole.

  On the extended reals the two agree: the logistic function is one function on both sides, a change of float format
  is the identity, and the sum over the 8192 hidden units is the sum over the 32 blocks of the sums over a block's 256
  units, accumulated in order — only the commutativity and associativity of + is used, so no finiteness of the inputs is
  needed. The frames hold because the body, in each of its three control cases, loads and stores whole resident blocks.
-/
import proofs.«144755_j29515015258325_2_alg».proof.Defs
import proofs.«144755_j29515015258325_2_alg».proof.Proof.Gen.Kernel
import proofs.«144755_j29515015258325_2_alg».proof.Proof.Gen.KernelIdeal
import proofs.«144755_j29515015258325_2_alg».proof.Proof.Gen.ReferenceIdeal
import proofs.«144755_j29515015258325_2_alg».proof.Proof.Gen.ReferenceIdeal.Run
import proofs.«144755_j29515015258325_2_alg».proof.Proof.Gen.ReferenceIdeal.Read
import proofs.«144755_j29515015258325_2_alg».proof.Proof.Gen.Pre_finite_inputs
import proofs.«144755_j29515015258325_2_alg».proof.Proof.K.Frame
import proofs.«144755_j29515015258325_2_alg».proof.Proof.KI.Value
import proofs.«144755_j29515015258325_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the specification of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩) (Cert.RefValue.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
